-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S200000 : Shape := ⟨1, ![200000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S16 .f32) (main_arg7 : FVec F S16x10 .f32) (main_arg8 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x10 .f32 := Host.absf main_arg7
  let main_cst_8 : FVec F S_ .f32 := constant S_ .f32 0x7F800000#32
  let main_v25 : FVec F S16x10 .f32 := broadcastInDim S16x10 ![] bcast_S_S16x10 main_cst_8
  let main_v26 : IVec S16x10 1 := cmpf .olt main_v24 main_v25
  let main_c_9 : IVec S_ 1 := constantI S_ 1 1#1
  let main_v27 : IVec S_ 1 := (fun x v => Host.reduce IntOp.andi x v reducesTo_S16x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S200000x128 .f32) (main_arg1 : IVec S2x6400000 32) (main_arg2 : IVec S200000 32) (main_arg3 : FVec F S128x16 .f32) (main_arg4 : FVec F S16 .f32) (main_arg5 : FVec F S16x16 .f32) (main_arg6 : FVec F S16 .f32) (main_arg7 : FVec F S16x10 .f32) (main_arg8 : FVec F S10 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_v13 main_v16
-- ==== Kernel.lean ====
abbrev S200000x128 : Shape := ⟨2, ![200000, 128]⟩
abbrev S2x6400000 : Shape := ⟨2, ![2, 6400000]⟩
abbrev S200000 : Shape := ⟨1, ![200000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S200000x16 : Shape := ⟨2, ![200000, 16]⟩
abbrev S8000x128 : Shape := ⟨2, ![8000, 128]⟩
abbrev S8000x16 : Shape := ⟨2, ![8000, 16]⟩
abbrev S6400000x16 : Shape := ⟨2, ![6400000, 16]⟩
abbrev S200000x1 : Shape := ⟨2, ![200000, 1]⟩
abbrev S1x16 : Shape := ⟨2, ![1, 16]⟩
abbrev S512 : Shape := ⟨1, ![512]⟩
abbrev S512x16 : Shape := ⟨2, ![512, 16]⟩
abbrev S512x1 : Shape := ⟨2, ![512, 1]⟩
abbrev S1x10 : Shape := ⟨2, ![1, 10]⟩
abbrev S512x10 : Shape := ⟨2, ![512, 10]⟩

abbrev nBuf : Space → Nat
  | .hbm => 109
  | .vmem => 28
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S200000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x10, .f32⟩
  | .hbm, ⟨8, _⟩ => ⟨S10, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .f32⟩
  | .hbm, ⟨14, _⟩ => ⟨S6400000, .f32⟩
  | .hbm, ⟨15, _⟩ => ⟨S_, .f32⟩
  | .hbm, ⟨16, _⟩ => ⟨S200000, .f32⟩
  | .hbm, ⟨17, _⟩ => ⟨S6400000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .i32⟩
  | .hbm, ⟨26, _⟩ => ⟨S6400000, .i32⟩
  | .hbm, ⟨27, _⟩ => ⟨S6400000, .i1⟩
  | .hbm, ⟨28, _⟩ => ⟨S_, .i32⟩
  | .hbm, ⟨29, _⟩ => ⟨S6400000, .i32⟩
  | .hbm, ⟨30, _⟩ => ⟨S6400000, .i32⟩
  | .hbm, ⟨31, _⟩ => ⟨S6400000, .i32⟩
  | .hbm, ⟨32, _⟩ => ⟨S6400000x1, .i32⟩
  | .hbm, ⟨33, _⟩ => ⟨S6400000, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000, .f32⟩
  | .hbm, ⟨43, _⟩ => ⟨S6400000, .f32⟩
  | .hbm, ⟨44, _⟩ => ⟨S_, .f32⟩
  | .hbm, ⟨45, _⟩ => ⟨S200000, .f32⟩
  | .hbm, ⟨46, _⟩ => ⟨S200000, .f32⟩
  | .hbm, ⟨47, _⟩ => ⟨S200000x16, .f32⟩
  | .hbm, ⟨48, _⟩ => ⟨S6400000x1, .f32⟩
  | .hbm, ⟨49, _⟩ => ⟨S_, .i32⟩
  | .hbm, ⟨50, _⟩ => ⟨S6400000, .i32⟩
  | .hbm, ⟨51, _⟩ => ⟨S6400000, .i1⟩
  | .hbm, ⟨52, _⟩ => ⟨S_, .i32⟩
  | .hbm, ⟨53, _⟩ => ⟨S6400000, .i32⟩
  | .hbm, ⟨54, _⟩ => ⟨S6400000, .i32⟩
  | .hbm, ⟨55, _⟩ => ⟨S6400000, .i32⟩
  | .hbm, ⟨56, _⟩ => ⟨S6400000x1, .i32⟩
  | .hbm, ⟨57, _⟩ => ⟨S6400000x16, .f32⟩
  | .hbm, ⟨58, _⟩ => ⟨S6400000x16, .f32⟩
  | .hbm, ⟨59, _⟩ => ⟨S6400000x16, .f32⟩
  | .hbm, ⟨60, _⟩ => ⟨S_, .f32⟩
  | .hbm, ⟨61, _⟩ => ⟨S200000x16, .f32⟩
  | .hbm, ⟨62, _⟩ => ⟨S6400000x1, .i32⟩
  | .hbm, ⟨63, _⟩ => ⟨S200000x16, .f32⟩
  | .hbm, ⟨64, _⟩ => ⟨S200000x1, .f32⟩
  | .hbm, ⟨65, _⟩ => ⟨S200000x16, .f32⟩
  | .hbm, ⟨66, _⟩ => ⟨S200000x16, .f32⟩
  | .hbm, ⟨67, _⟩ => ⟨S1x16, .f32⟩
  | .hbm, ⟨68, _⟩ => ⟨S200000x16, .f32⟩
  | .hbm, ⟨69, _⟩ => ⟨S200000x16, .f32⟩
  | .hbm, ⟨70, _⟩ => ⟨S6400000x1, .f32⟩
  | .hbm, ⟨71, _⟩ => ⟨S_, .i32⟩
  | .hbm, ⟨72, _⟩ => ⟨S6400000, .i32⟩
  | .hbm, ⟨73, _⟩ => ⟨S6400000, .i1⟩
  | .hbm, ⟨74, _⟩ => ⟨S_, .i32⟩
  | .hbm, ⟨75, _⟩ => ⟨S6400000, .i32⟩
  | .hbm, ⟨76, _⟩ => ⟨S6400000, .i32⟩
  | .hbm, ⟨77, _⟩ => ⟨S6400000, .i32⟩
  | .hbm, ⟨78, _⟩ => ⟨S6400000x1, .i32⟩
  | .hbm, ⟨79, _⟩ => ⟨S6400000x16, .f32⟩
  | .hbm, ⟨80, _⟩ => ⟨S6400000x16, .f32⟩
  | .hbm, ⟨81, _⟩ => ⟨S6400000x16, .f32⟩
  | .hbm, ⟨82, _⟩ => ⟨S_, .f32⟩
  | .hbm, ⟨83, _⟩ => ⟨S200000x16, .f32⟩
  | .hbm, ⟨84, _⟩ => ⟨S6400000x1, .i32⟩
  | .hbm, ⟨85, _⟩ => ⟨S200000x16, .f32⟩
  | .hbm, ⟨86, _⟩ => ⟨S200000x1, .f32⟩
  | .hbm, ⟨87, _⟩ => ⟨S200000x16, .f32⟩
  | .hbm, ⟨88, _⟩ => ⟨S200000x16, .f32⟩
  | .hbm, ⟨89, _⟩ => ⟨S1x16, .f32⟩
  | .hbm, ⟨90, _⟩ => ⟨S200000x16, .f32⟩
  | .hbm, ⟨91, _⟩ => ⟨S_, .f32⟩
  | .hbm, ⟨92, _⟩ => ⟨S200000, .f32⟩
  | .hbm, ⟨93, _⟩ => ⟨S_, .f32⟩
  | .hbm, ⟨94, _⟩ => ⟨S512, .f32⟩
  | .hbm, ⟨95, _⟩ => ⟨S200000x1, .i32⟩
  | .hbm, ⟨96, _⟩ => ⟨S512, .f32⟩
  | .hbm, ⟨97, _⟩ => ⟨S_, .f32⟩
  | .hbm, ⟨98, _⟩ => ⟨S512x16, .f32⟩
  | .hbm, ⟨99, _⟩ => ⟨S200000x1, .i32⟩
  | .hbm, ⟨100, _⟩ => ⟨S512x16, .f32⟩
  | .hbm, ⟨101, _⟩ => ⟨S_, .f32⟩
  | .hbm, ⟨102, _⟩ => ⟨S512, .f32⟩
  | .hbm, ⟨103, _⟩ => ⟨S512, .f32⟩
  | .hbm, ⟨104, _⟩ => ⟨S512x1, .f32⟩
  | .hbm, ⟨105, _⟩ => ⟨S512x16, .f32⟩
  | .hbm, ⟨106, _⟩ => ⟨S512x16, .f32⟩
  | .hbm, ⟨107, _⟩ => ⟨S1x10, .f32⟩
  | .hbm, ⟨108, _⟩ => ⟨S512x10, .f32⟩
  | .local _ .vmem, ⟨0, _⟩ => ⟨S8000x128, .f32⟩
  | .local _ .vmem, ⟨1, _⟩ => ⟨S8000x128, .f32⟩
  | .local _ .vmem, ⟨2, _⟩ => ⟨S128x16, .f32⟩
  | .local _ .vmem, ⟨3, _⟩ => ⟨S8000x16, .f32⟩
  | .local _ .vmem, ⟨4, _⟩ => ⟨S8000x16, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | .local _ .vmem, ⟨8, _⟩ => ⟨S8000x16, .f32⟩
  | .local _ .vmem, ⟨9, _⟩ => ⟨S1x16, .f32⟩
  | .local _ .vmem, ⟨10, _⟩ => ⟨S8000x16, .f32⟩
  | .local _ .vmem, ⟨11, _⟩ => ⟨S8000x16, .f32⟩
  | .local _ .vmem, ⟨12, _⟩ => ⟨S8000x16, .f32⟩
  | .local _ .vmem, ⟨13, _⟩ => ⟨S8000x16, .f32⟩
  | .local _ .vmem, ⟨14, _⟩ => ⟨S16x16, .f32⟩
  | .local _ .vmem, ⟨15, _⟩ => ⟨S8000x16, .f32⟩
  | .local _ .vmem, ⟨16, _⟩ => ⟨S8000x16, .f32⟩
  | .local _ .vmem, ⟨17, _⟩ => ⟨S8000x16, .f32⟩
  | .local _ .vmem, ⟨18, _⟩ => ⟨S8000x16, .f32⟩
  | .local _ .vmem, ⟨19, _⟩ => ⟨S8000x16, .f32⟩
  | .local _ .vmem, ⟨20, _⟩ => ⟨S8000x16, .f32⟩
  | .local _ .vmem, ⟨21, _⟩ => ⟨S1x16, .f32⟩
  | .local _ .vmem, ⟨22, _⟩ => ⟨S8000x16, .f32⟩
  | .local _ .vmem, ⟨23, _⟩ => ⟨S8000x16, .f32⟩
  | .local _ .vmem, ⟨24, _⟩ => ⟨S512x16, .f32⟩
  | .local _ .vmem, ⟨25, _⟩ => ⟨S16x10, .f32⟩
  | .local _ .vmem, ⟨26, _⟩ => ⟨S1x10, .f32⟩
  | .local _ .vmem, ⟨27, _⟩ => ⟨S512x10, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x16 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S16x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S8000x16_S8000x16_0_0 : ∀ a, (![0, 0] : Fin 2 → Nat) a + S8000x16.size a ≤ S8000x16.size a
  h_S8000x16 : 0 < S8000x16.numel
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  shapeCasts_S16_S1x16 : S16.ShapeCasts S1x16
  shapeCasts_S8000x16_S8000x16 : S8000x16.ShapeCasts S8000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x16_S16x16_0_0 : ∀ a, (![0, 0] : Fin 2 → Nat) a + S16x16.size a ≤ S16x16.size a
  h_S16x16 : 0 < S16x16.numel
  bcast_S_S512 : S_.BroadcastsInDim S512 (![] : Fin 0 → Fin S512.rank)
  bcast_S_S512x16 : S_.BroadcastsInDim S512x16 (![] : Fin 0 → Fin S512x16.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  shapeCasts_S10_S1x10 : S10.ShapeCasts S1x10
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S8000x128_S128x16_S8000x16_1_0_0_1_n_n_wf : DotDims.WF S8000x128 S128x16 S8000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S8000x16_S16x16_S8000x16_1_0_0_1_n_n_wf : DotDims.WF S8000x16 S16x16 S8000x16 [1] [0] [0] [1] [] []
  scatter_S512_S200000x1_S200000_n_0_0_1_wf : ScatterDims.WF S512 S200000x1 S200000 [] [0] [0] 1
  scatter_S512x16_S200000x1_S200000x16_1_0_0_1_wf : ScatterDims.WF S512x16 S200000x1 S200000x16 [1] [0] [0] 1
  dot_S512x16_S16x10_S512x10_1_0_0_1_n_n_wf : DotDims.WF S512x16 S16x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S200000x16.size a
  hwx0_2 : ∀ i : grid0.Coords, EltTy.bits .f32 = 32 ∨ (Rect.block (s := S200000x16) S8000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S200000x16.size a
  hwx1_0 : ∀ i : grid1.Coords, EltTy.bits .f32 = 32 ∨ (Rect.block (s := S200000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S200000x16.size a
  hwx1_1 : ∀ i : grid1.Coords, EltTy.bits .f32 = 32 ∨ (Rect.block (s := S200000x16) S8000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S200000x16.size a
  hwx1_3 : ∀ i : grid1.Coords, EltTy.bits .f32 = 32 ∨ (Rect.block (s := S200000x16) S8000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S200000x16.size a
  hwx2_0 : ∀ i : grid2.Coords, EltTy.bits .f32 = 32 ∨ (Rect.block (s := S200000x16) S8000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x16.size a ≤ S200000x16.size a
  hwx2_2 : ∀ i : grid2.Coords, EltTy.bits .f32 = 32 ∨ (Rect.block (s := S200000x16) S8000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S200000x16.size a
  hwx3_0 : ∀ i : grid3.Coords, EltTy.bits .f32 = 32 ∨ (Rect.block (s := S200000x16) S8000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x16.size a ≤ S200000x16.size a
  hwx3_1 : ∀ i : grid3.Coords, EltTy.bits .f32 = 32 ∨ (Rect.block (s := S200000x16) S8000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x16.size a ≤ S200000x16.size a
  hwx3_3 : ∀ i : grid3.Coords, EltTy.bits .f32 = 32 ∨ (Rect.block (s := S200000x16) S8000x16.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x16.size a ≤ S512x16.size a
  hwx4_0 : ∀ i : grid4.Coords, EltTy.bits .f32 = 32 ∨ (Rect.block (s := S512x16) S512x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x10.size a ≤ S16x10.size a
  hwx4_1 : ∀ i : grid4.Coords, EltTy.bits .f32 = 32 ∨ (Rect.block (s := S16x10) S16x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x10.size a ≤ S512x10.size a
  hwx4_3 : ∀ i : grid4.Coords, EltTy.bits .f32 = 32 ∨ (Rect.block (s := S512x10) S512x10.size (cc4_transform_3 i) (hinb4_3 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x16_S200000x1_S200000x16_1_0_0_1 : ScatterDims S512x16 S200000x1 S200000x16 where
  updateWindowDims := [1]
  insertedWindowDims := [0]
  scatterDimsToOperandDims := [0]
  indexVectorDim := 1
  wf := scatter_S512x16_S200000x1_S200000x16_1_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S8000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S8000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S8000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S8000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v78) S512x16.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S16x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S512x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S200000 : Shape := ⟨1, ![200000]⟩
abbrev S128x16 : Shape := ⟨2, ![128, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S200000x16 : Shape := ⟨2, ![200000, 16]⟩
abbrev S6400000x16 : Shape := ⟨2, ![6400000, 16]⟩
abbrev S200000x1 : Shape := ⟨2, ![200000, 1]⟩
abbrev S1x16 : Shape := ⟨2, ![1, 16]⟩
abbrev S512 : Shape := ⟨1, ![512]⟩
abbrev S512x16 : Shape := ⟨2, ![512, 16]⟩
abbrev S512x1 : Shape := ⟨2, ![512, 1]⟩
abbrev S512x10 : Shape := ⟨2, ![512, 10]⟩
abbrev S1x10 : Shape := ⟨2, ![1, 10]⟩

abbrev nBuf : Space → Nat
  | .hbm => 121
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S200000, .i32⟩
  | .hbm, ⟨3, _⟩ => ⟨S128x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x10, .f32⟩
  | .hbm, ⟨8, _⟩ => ⟨S10, .f32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S_, .f32⟩
  | .hbm, ⟨14, _⟩ => ⟨S6400000, .f32⟩
  | .hbm, ⟨15, _⟩ => ⟨S_, .f32⟩
  | .hbm, ⟨16, _⟩ => ⟨S200000, .f32⟩
  | .hbm, ⟨17, _⟩ => ⟨S6400000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .i32⟩
  | .hbm, ⟨26, _⟩ => ⟨S6400000, .i32⟩
  | .hbm, ⟨27, _⟩ => ⟨S6400000, .i1⟩
  | .hbm, ⟨28, _⟩ => ⟨S_, .i32⟩
  | .hbm, ⟨29, _⟩ => ⟨S6400000, .i32⟩
  | .hbm, ⟨30, _⟩ => ⟨S6400000, .i32⟩
  | .hbm, ⟨31, _⟩ => ⟨S6400000, .i32⟩
  | .hbm, ⟨32, _⟩ => ⟨S6400000x1, .i32⟩
  | .hbm, ⟨33, _⟩ => ⟨S6400000, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000, .f32⟩
  | .hbm, ⟨43, _⟩ => ⟨S6400000, .f32⟩
  | .hbm, ⟨44, _⟩ => ⟨S200000x16, .f32⟩
  | .hbm, ⟨45, _⟩ => ⟨S6400000x1, .f32⟩
  | .hbm, ⟨46, _⟩ => ⟨S_, .i32⟩
  | .hbm, ⟨47, _⟩ => ⟨S6400000, .i32⟩
  | .hbm, ⟨48, _⟩ => ⟨S6400000, .i1⟩
  | .hbm, ⟨49, _⟩ => ⟨S_, .i32⟩
  | .hbm, ⟨50, _⟩ => ⟨S6400000, .i32⟩
  | .hbm, ⟨51, _⟩ => ⟨S6400000, .i32⟩
  | .hbm, ⟨52, _⟩ => ⟨S6400000, .i32⟩
  | .hbm, ⟨53, _⟩ => ⟨S6400000x1, .i32⟩
  | .hbm, ⟨54, _⟩ => ⟨S6400000x16, .f32⟩
  | .hbm, ⟨55, _⟩ => ⟨S6400000x16, .f32⟩
  | .hbm, ⟨56, _⟩ => ⟨S6400000x16, .f32⟩
  | .hbm, ⟨57, _⟩ => ⟨S_, .f32⟩
  | .hbm, ⟨58, _⟩ => ⟨S200000x16, .f32⟩
  | .hbm, ⟨59, _⟩ => ⟨S6400000x1, .i32⟩
  | .hbm, ⟨60, _⟩ => ⟨S200000x16, .f32⟩
  | .hbm, ⟨61, _⟩ => ⟨S_, .f32⟩
  | .hbm, ⟨62, _⟩ => ⟨S200000, .f32⟩
  | .hbm, ⟨63, _⟩ => ⟨S200000, .f32⟩
  | .hbm, ⟨64, _⟩ => ⟨S200000x1, .f32⟩
  | .hbm, ⟨65, _⟩ => ⟨S200000x16, .f32⟩
  | .hbm, ⟨66, _⟩ => ⟨S200000x16, .f32⟩
  | .hbm, ⟨67, _⟩ => ⟨S200000x16, .f32⟩
  | .hbm, ⟨68, _⟩ => ⟨S1x16, .f32⟩
  | .hbm, ⟨69, _⟩ => ⟨S200000x16, .f32⟩
  | .hbm, ⟨70, _⟩ => ⟨S200000x16, .f32⟩
  | .hbm, ⟨71, _⟩ => ⟨S_, .f32⟩
  | .hbm, ⟨72, _⟩ => ⟨S200000x16, .f32⟩
  | .hbm, ⟨73, _⟩ => ⟨S200000x16, .f32⟩
  | .hbm, ⟨74, _⟩ => ⟨S200000x16, .f32⟩
  | .hbm, ⟨75, _⟩ => ⟨S6400000x1, .f32⟩
  | .hbm, ⟨76, _⟩ => ⟨S_, .i32⟩
  | .hbm, ⟨77, _⟩ => ⟨S6400000, .i32⟩
  | .hbm, ⟨78, _⟩ => ⟨S6400000, .i1⟩
  | .hbm, ⟨79, _⟩ => ⟨S_, .i32⟩
  | .hbm, ⟨80, _⟩ => ⟨S6400000, .i32⟩
  | .hbm, ⟨81, _⟩ => ⟨S6400000, .i32⟩
  | .hbm, ⟨82, _⟩ => ⟨S6400000, .i32⟩
  | .hbm, ⟨83, _⟩ => ⟨S6400000x1, .i32⟩
  | .hbm, ⟨84, _⟩ => ⟨S6400000x16, .f32⟩
  | .hbm, ⟨85, _⟩ => ⟨S6400000x16, .f32⟩
  | .hbm, ⟨86, _⟩ => ⟨S6400000x16, .f32⟩
  | .hbm, ⟨87, _⟩ => ⟨S_, .f32⟩
  | .hbm, ⟨88, _⟩ => ⟨S200000x16, .f32⟩
  | .hbm, ⟨89, _⟩ => ⟨S6400000x1, .i32⟩
  | .hbm, ⟨90, _⟩ => ⟨S200000x16, .f32⟩
  | .hbm, ⟨91, _⟩ => ⟨S_, .f32⟩
  | .hbm, ⟨92, _⟩ => ⟨S200000, .f32⟩
  | .hbm, ⟨93, _⟩ => ⟨S200000, .f32⟩
  | .hbm, ⟨94, _⟩ => ⟨S200000x1, .f32⟩
  | .hbm, ⟨95, _⟩ => ⟨S200000x16, .f32⟩
  | .hbm, ⟨96, _⟩ => ⟨S200000x16, .f32⟩
  | .hbm, ⟨97, _⟩ => ⟨S200000x16, .f32⟩
  | .hbm, ⟨98, _⟩ => ⟨S1x16, .f32⟩
  | .hbm, ⟨99, _⟩ => ⟨S200000x16, .f32⟩
  | .hbm, ⟨100, _⟩ => ⟨S200000x16, .f32⟩
  | .hbm, ⟨101, _⟩ => ⟨S_, .f32⟩
  | .hbm, ⟨102, _⟩ => ⟨S200000, .f32⟩
  | .hbm, ⟨103, _⟩ => ⟨S_, .f32⟩
  | .hbm, ⟨104, _⟩ => ⟨S512, .f32⟩
  | .hbm, ⟨105, _⟩ => ⟨S200000x1, .i32⟩
  | .hbm, ⟨106, _⟩ => ⟨S512, .f32⟩
  | .hbm, ⟨107, _⟩ => ⟨S_, .f32⟩
  | .hbm, ⟨108, _⟩ => ⟨S512x16, .f32⟩
  | .hbm, ⟨109, _⟩ => ⟨S200000x1, .i32⟩
  | .hbm, ⟨110, _⟩ => ⟨S512x16, .f32⟩
  | .hbm, ⟨111, _⟩ => ⟨S_, .f32⟩
  | .hbm, ⟨112, _⟩ => ⟨S512, .f32⟩
  | .hbm, ⟨113, _⟩ => ⟨S512, .f32⟩
  | .hbm, ⟨114, _⟩ => ⟨S512x1, .f32⟩
  | .hbm, ⟨115, _⟩ => ⟨S512x16, .f32⟩
  | .hbm, ⟨116, _⟩ => ⟨S512x16, .f32⟩
  | .hbm, ⟨117, _⟩ => ⟨S512x10, .f32⟩
  | .hbm, ⟨118, _⟩ => ⟨S1x10, .f32⟩
  | .hbm, ⟨119, _⟩ => ⟨S512x10, .f32⟩
  | .hbm, ⟨120, _⟩ => ⟨S512x10, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_cst : Ref sig .tc := ⟨.hbm, 71, rfl⟩
abbrev main_call0_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S512 : S_.BroadcastsInDim S512 (![] : Fin 0 → Fin S512.rank)
  bcast_S_S512x16 : S_.BroadcastsInDim S512x16 (![] : Fin 0 → Fin S512x16.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S200000x128_S128x16_S200000x16_1_0_0_1_n_n_wf : DotDims.WF S200000x128 S128x16 S200000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x16_S200000x16_1_0_0_1_n_n_wf : DotDims.WF S200000x16 S16x16 S200000x16 [1] [0] [0] [1] [] []
  scatter_S512_S200000x1_S200000_n_0_0_1_wf : ScatterDims.WF S512 S200000x1 S200000 [] [0] [0] 1
  scatter_S512x16_S200000x1_S200000x16_1_0_0_1_wf : ScatterDims.WF S512x16 S200000x1 S200000x16 [1] [0] [0] 1
  dot_S512x16_S16x10_S512x10_1_0_0_1_n_n_wf : DotDims.WF S512x16 S16x10 S512x10 [1] [0] [0] [1] [] []

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def scatter_S512_S200000x1_S200000_n_0_0_1 : ScatterDims S512 S200000x1 S200000 where
  updateWindowDims := []
  insertedWindowDims := [0]
  scatterDimsToOperandDims := [0]
  indexVectorDim := 1
  wf := scatter_S512_S200000x1_S200000_n_0_0_1_wf
def scatter_S512x16_S200000x1_S200000x16_1_0_0_1 : ScatterDims S512x16 S200000x1 S200000x16 where
  updateWindowDims := [1]
  insertedWindowDims := [0]
  scatterDimsToOperandDims := [0]
  indexVectorDim := 1
  wf := scatter_S512x16_S200000x1_S200000x16_1_0_0_1_wf
def dot_S512x16_S16x10_S512x10_1_0_0_1_n_n : DotDims S512x16 S16x10 S512x10 where
  lhsContracting := [1]
  rhsContracting := [0]
  lhsNonContracting := [0]
  rhsNonContracting := [1]
  lhsBatch := []
  rhsBatch := []
  wf := dot_S512x16_S16x10_S512x10_1_0_0_1_n_n_wf

class Facts : Prop extends Facts₀ where

variable [Facts]
-- ==== Proof.NamedRun.lean ====
/-
  The idealized kernel's run with its result buffer named.

  @main is nine segments: four stretches of host operations and five pipelined regions.  The contents of the
  TensorCore's buffers at the segment boundaries are the fold `W0 … W9` (launch memory, then alternately a
  stretch's operations applied and a region's arrays replaced by what its write-backs leave).  The run below
  says: every weakly fair execution terminates without a fault, the result buffer ends at the last boundary's
  contents `W9` of that buffer, and the nine arguments end as launched.  It is the launch of the segments'
  chain with the last thread state ("every unscoped buffer holds W9") read at one more buffer than the frame
  claim reads: the result's.
-/
import proofs.«134756_j14551349199033_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding
-- plain definitions in a metavariable's type
set_option backward.isDefEq.respectTransparency.types false in
/-- The run of @main with the result named: the result buffer ends at the last boundary's contents `W9`, and
    each argument buffer ends as launched. -/
theorem run_named : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Hand

end
-- ==== Proof.Reg0.lean ====
/-
  Region 0 (the first dense projection) as one whole-array function.

  The grid has 25 points; point t stages rows 8000·t … 8000·t + 7999 of the node-feature array x (all 128
  columns) and the whole 128 × 16 weight matrix, and writes back rows 8000·t … of the 200000 × 16 result.
  The body rounds both operands to bf16 (the identity on extended reals) and multiplies into a zero
  accumulator, so entry (r, c) of a block is Σ_k xblock(r, k) · w(k, c).  The host's dot_general of the two
  whole arrays has, at (8000·t + r, c), the sum Σ_k x(8000·t + r, k) · w(k, c): the same sum, since the block's
  row r is the array's row 8000·t + r.  The 25 blocks tile the result, so after the region the result array
  is the host product of the two arrays as the region found them.
-/
import proofs.«134756_j14551349199033_1_alg».proof.Proof.Gen.KernelIdeal.Frame
import proofs.«134756_j14551349199033_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.R0

open Cert.KernelIdeal Cert.KernelIdeal.Gen

theorem hz2 : (![0, 0] : Fin 2 → Nat) = fun _ => 0 := funext fun a => by fin_cases a <;> rfl

/-- The body's matrix product: 8000 × 128 by 128 × 16, contracting the 128. -/
abbrev D : DotDims S8000x128 S128x16 S8000x16 := dot_S8000x128_S128x16_S8000x16_1_0_0_1_n_n

/-- Left operand's index for output entry j and contraction position k: (row of j, k). -/
abbrev lix (j : S8000x16.Idx) (k : Fin 128) : S8000x128.Idx := fun a => match a with
  | ⟨0, _⟩ => ⟨(j 0).val, (j 0).isLt⟩
  | ⟨1, _⟩ => ⟨k.val, k.isLt⟩
/-- Right operand's index: (k, column of j). -/
abbrev rix (j : S8000x16.Idx) (k : Fin 128) : S128x16.Idx := fun a => match a with
  | ⟨0, _⟩ => ⟨k.val, k.isLt⟩
  | ⟨1, _⟩ => ⟨(j 1).val, (j 1).isLt⟩

theorem lhs_0 (i : S8000x16.Idx) (q : D.contr.Idx) : (D.lhsIdx i q 0).val = (i 0).val := by
  unfold DotDims.lhsIdx
  rw [dif_neg (show ¬(0 : Fin S8000x128.rank) ∈ D.lhsBatch by decide), dif_pos (show (0 : Fin S8000x128.rank) ∈ D.lhsNonContracting by decide)]
  rfl
theorem lhs_1 (i : S8000x16.Idx) (q : D.contr.Idx) : (D.lhsIdx i q 1).val = (q ⟨0, by decide⟩).val :=
  D.lhsIdx_val_of_single rfl i q
theorem rhs_0 (i : S8000x16.Idx) (q : D.contr.Idx) : (D.rhsIdx i q 0).val = (q ⟨0, by decide⟩).val :=
  D.rhsIdx_val_of_single rfl i q
theorem rhs_1 (i : S8000x16.Idx) (q : D.contr.Idx) : (D.rhsIdx i q 1).val = (i 1).val := by
  unfold DotDims.rhsIdx
  rw [dif_neg (show ¬(1 : Fin S128x16.rank) ∈ D.rhsBatch by decide), dif_pos (show (1 : Fin S128x16.rank) ∈ D.rhsNonContracting by decide)]
  rfl

/-- The body's stored value at an entry: the plain sum over the contracted axis (rounding to bf16 is the
    identity on extended reals, and the accumulator starts at zero). -/
theorem pay_apply (x0 : Vec Ideal S8000x128 .f32) (x1 : Vec Ideal S128x16 .f32) (j : S8000x16.Idx) :
    k0_pay1 (F := Ideal) x0 x1 j = ∑ k : Fin 128, x0 (lix j k) * x1 (rix j k) := by
  unfold k0_pay1
  refine (Ideal.matmul_constant_zero_apply D none _ _ j).trans ?_
  rw [← Equiv.sum_comp (ValueIdx.contrEquiv1 D 128 rfl rfl).symm]
  refine Finset.sum_congr rfl fun k _ => ?_
  have hk := ValueIdx.contrEquiv1_symm_val D 128 rfl rfl k
  have el : D.lhsIdx j ((ValueIdx.contrEquiv1 D 128 rfl rfl).symm k) = lix j k := funext fun a => Fin.ext (by
    match a with
    | ⟨0, _⟩ => exact lhs_0 _ _
    | ⟨1, _⟩ => exact (lhs_1 _ _).trans hk)
  have er : D.rhsIdx j ((ValueIdx.contrEquiv1 D 128 rfl rfl).symm k) = rix j k := funext fun a => Fin.ext (by
    match a with
    | ⟨0, _⟩ => exact (rhs_0 _ _).trans hk
    | ⟨1, _⟩ => exact rhs_1 _ _)
  rw [el, er]
  rfl

/-- The host's product of the two whole arrays. -/
abbrev prod (x : (⟨S200000x128, .f32⟩ : BufTy).Contents (Elt Ideal)) (w : (⟨S128x16, .f32⟩ : BufTy).Contents (Elt Ideal)) :
    (⟨S200000x16, .f32⟩ : BufTy).Contents (Elt Ideal) :=
  Cert.ReferenceIdeal.Read.val_main_v27 (F := Ideal) x w

/-- The printed index maps over the 25 points: the x window and the result window sit at block row t, column
    block 0; the weight window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the host product of the arrays the region found. -/
theorem flushed_eq (c : Dev nD) (t : Fin cfg0.N) :
    (dat0 (F := Ideal) V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz2]
  simp only [View.ld_unit_zero (S := S8000x128) hz2, View.ld_unit_zero (S := S128x16) hz2]
  obtain ⟨e0, e1, e2, e3, e4, e5⟩ := idx_facts t
  funext j
  show k0_pay1 (iblk0 V c 0 t) (iblk0 V c 1 t) j
    = Cert.ReferenceIdeal.Read.val_main_v27 (F := Ideal) (V c main_arg0) (V c main_arg3) (((cfg0.win 2).blk t).view.emb j)
  refine (pay_apply _ _ j).trans ?_
  refine Eq.trans ?_ (Cert.ReferenceIdeal.Read.val_main_v27_apply _ _ _).symm
  refine Finset.sum_congr rfl fun k _ => ?_
  have h0 : iblk0 V c 0 t (lix j k) = V c main_arg0 (Cert.ReferenceIdeal.Read.lidx_main_v27 (((cfg0.win 2).blk t).view.emb j) k) := by
    show V c main_arg0 (((cfg0.win 0).blk t).view.emb (lix j k)) = _
    refine congrArg _ (funext fun a => Fin.ext ?_)
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * k.val = k.val; omega
  have h1 : iblk0 V c 1 t (rix j k) = V c main_arg3 (Cert.ReferenceIdeal.Read.ridx_main_v27 (((cfg0.win 2).blk t).view.emb j) k) := by
    show V c main_arg3 (((cfg0.win 1).blk t).view.emb (rix j k)) = _
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [h0, h1]

/-- An index of the result array is in point t's block iff each coordinate is in the block's range. -/
theorem mem_blk (t : Fin cfg0.N) (i : S200000x16.Idx) :
    i ∈ ((cfg0.win 2).blk t).view.set ↔ ∀ a : Fin 2, win0_2.index t a * S8000x16.size a ≤ (i a).val ∧ (i a).val < win0_2.index t a * S8000x16.size a + S8000x16.size a := by
  show i ∈ ((View.whole main_v29).slice (win0_2.rect t)).set ↔ _
  rw [View.set_slice_whole, Rect.mem_set_unit]
  exact Iff.rfl

/-- Row r of the result lies in the block of point r / 8000. -/
theorem cover (i : S200000x16.Idx) : ∃ t : Fin cfg0.N, (cfg0.win 2).flush t = true ∧ i ∈ ((cfg0.win 2).blk t).view.set := by
  have hi0 : (i 0).val < 200000 := (i 0).isLt
  have hi1 : (i 1).val < 16 := (i 1).isLt
  have hN : grid0.N = 25 := N_0
  have ht : (i 0).val / 8000 < grid0.N := by rw [hN]; omega
  obtain ⟨e0, e1, e2, e3, e4, e5⟩ := idx_facts ⟨(i 0).val / 8000, ht⟩
  refine ⟨⟨(i 0).val / 8000, ht⟩, flush0_2 _, ?_⟩
  rw [mem_blk]
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win0_2.index ⟨(i 0).val / 8000, ht⟩ (1 : Fin 2) * 16 ≤ (i 1).val ∧ (i 1).val < win0_2.index ⟨(i 0).val / 8000, ht⟩ (1 : Fin 2) * 16 + 16
    rw [e5]; omega

/-- After region 0 its result array holds the host product of the two arrays as the region found them. -/
theorem value (c : Dev nD) : (dat0 (F := Ideal) V c).arrAt 2 cfg0.N = prod (V c main_arg0) (V c main_arg3) :=
  (dat0 (F := Ideal) V c).arrAt_eq_of_cover 2 (prod (V c main_arg0) (V c main_arg3)) (fun t _ => flushed_eq V c t) cover

end Cert.KernelIdeal.Hand.R0

end
-- ==== Proof.ChainA.lean ====
/-
  The buffers the first region is entered with, and what it leaves.

  Before the first region the host computes, from the edge list alone: the source and target index vectors
  (rows 0 and 1 of the edge array), the in-degree plus one by a scatter-add of ones, its power −1/2, the edge
  weights (that power gathered at both ends of each edge and multiplied), and the reciprocal degree.  These are
  the same operations, in the same order, as the reference's, so each buffer holds the reference's stage of
  that name as a function of the launched edge array.  No operation of the stretch writes an argument.
  The first region then leaves x·W1 (Region 0's whole-array function) in its result buffer and nothing else
  changed.
-/
import proofs.«134756_j14551349199033_1_alg».proof.Proof.Gen.KernelIdeal.Frame
import proofs.«134756_j14551349199033_1_alg».proof.Proof.Gen.ReferenceIdeal.Read
import proofs.«134756_j14551349199033_1_alg».proof.Proof.Reg0
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.ReferenceIdeal.Read

variable (m : (ℓ : Loc nD τ sig) → Buf (Elt Ideal) ℓ) (ρ : Dev nD → PrngReg)

/-- The nine argument arrays as launched, on core c. -/
abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)
abbrev x4 (c : Dev nD) := m ((c.tc : Thread nD τ).loc main_arg4)
abbrev x5 (c : Dev nD) := m ((c.tc : Thread nD τ).loc main_arg5)
abbrev x6 (c : Dev nD) := m ((c.tc : Thread nD τ).loc main_arg6)
abbrev x7 (c : Dev nD) := m ((c.tc : Thread nD τ).loc main_arg7)
abbrev x8 (c : Dev nD) := m ((c.tc : Thread nD τ).loc main_arg8)

/-! ## After the first stretch of host operations -/

theorem W1_v1 (c : Dev nD) : W1 m ρ c (Proc.devRef .tc main_v1) = val_main_v1 (F := Ideal) (x1 m c) := by
  show StableHlo.after hostOps0 (W0 m ρ c) (Proc.devRef .tc main_v1) = _
  after_results_simp <;> rfl
theorem W1_v3 (c : Dev nD) : W1 m ρ c (Proc.devRef .tc main_v3) = val_main_v3 (F := Ideal) (x1 m c) := by
  show StableHlo.after hostOps0 (W0 m ρ c) (Proc.devRef .tc main_v3) = _
  after_results_simp <;> rfl
theorem W1_v26 (c : Dev nD) : W1 m ρ c (Proc.devRef .tc main_v26) = val_main_v26 (F := Ideal) (x1 m c) := by
  show StableHlo.after hostOps0 (W0 m ρ c) (Proc.devRef .tc main_v26) = _
  after_results_simp <;> rfl
theorem W1_v28 (c : Dev nD) : W1 m ρ c (Proc.devRef .tc main_v28) = val_main_v42 (F := Ideal) (x1 m c) := by
  show StableHlo.after hostOps0 (W0 m ρ c) (Proc.devRef .tc main_v28) = _
  after_results_simp <;> rfl
theorem W1_arg0 (c : Dev nD) : W1 m ρ c (Proc.devRef .tc main_arg0) = x0 m c := by
  show StableHlo.after hostOps0 (W0 m ρ c) (Proc.devRef .tc main_arg0) = _
  after_results_simp <;> rfl
theorem W1_arg2 (c : Dev nD) : W1 m ρ c (Proc.devRef .tc main_arg2) = x2 m c := by
  show StableHlo.after hostOps0 (W0 m ρ c) (Proc.devRef .tc main_arg2) = _
  after_results_simp <;> rfl
theorem W1_arg3 (c : Dev nD) : W1 m ρ c (Proc.devRef .tc main_arg3) = x3 m c := by
  show StableHlo.after hostOps0 (W0 m ρ c) (Proc.devRef .tc main_arg3) = _
  after_results_simp <;> rfl
theorem W1_arg4 (c : Dev nD) : W1 m ρ c (Proc.devRef .tc main_arg4) = x4 m c := by
  show StableHlo.after hostOps0 (W0 m ρ c) (Proc.devRef .tc main_arg4) = _
  after_results_simp <;> rfl
theorem W1_arg5 (c : Dev nD) : W1 m ρ c (Proc.devRef .tc main_arg5) = x5 m c := by
  show StableHlo.after hostOps0 (W0 m ρ c) (Proc.devRef .tc main_arg5) = _
  after_results_simp <;> rfl
theorem W1_arg6 (c : Dev nD) : W1 m ρ c (Proc.devRef .tc main_arg6) = x6 m c := by
  show StableHlo.after hostOps0 (W0 m ρ c) (Proc.devRef .tc main_arg6) = _
  after_results_simp <;> rfl
theorem W1_arg7 (c : Dev nD) : W1 m ρ c (Proc.devRef .tc main_arg7) = x7 m c := by
  show StableHlo.after hostOps0 (W0 m ρ c) (Proc.devRef .tc main_arg7) = _
  after_results_simp <;> rfl
theorem W1_arg8 (c : Dev nD) : W1 m ρ c (Proc.devRef .tc main_arg8) = x8 m c := by
  show StableHlo.after hostOps0 (W0 m ρ c) (Proc.devRef .tc main_arg8) = _
  after_results_simp <;> rfl

/-! ## After the first region -/

/-- The first projection's result: the host product of the node features and the first weight matrix. -/
theorem W2_v29 (c : Dev nD) : W2 m ρ c (Proc.devRef .tc main_v29) = val_main_v27 (F := Ideal) (x0 m c) (x3 m c) := by
  refine (W2_arr m ρ c 2).trans ((R0.value (V1 m ρ) c).trans ?_)
  show val_main_v27 (F := Ideal) (W1 m ρ c (Proc.devRef .tc main_arg0)) (W1 m ρ c (Proc.devRef .tc main_arg3)) = _
  rw [W1_arg0, W1_arg3]
theorem W2_v1 (c : Dev nD) : W2 m ρ c (Proc.devRef .tc main_v1) = val_main_v1 (F := Ideal) (x1 m c) :=
  (W2_of_ne m ρ c main_v1 (by decide)).trans (W1_v1 m ρ c)
theorem W2_v3 (c : Dev nD) : W2 m ρ c (Proc.devRef .tc main_v3) = val_main_v3 (F := Ideal) (x1 m c) :=
  (W2_of_ne m ρ c main_v3 (by decide)).trans (W1_v3 m ρ c)
theorem W2_v26 (c : Dev nD) : W2 m ρ c (Proc.devRef .tc main_v26) = val_main_v26 (F := Ideal) (x1 m c) :=
  (W2_of_ne m ρ c main_v26 (by decide)).trans (W1_v26 m ρ c)
theorem W2_v28 (c : Dev nD) : W2 m ρ c (Proc.devRef .tc main_v28) = val_main_v42 (F := Ideal) (x1 m c) :=
  (W2_of_ne m ρ c main_v28 (by decide)).trans (W1_v28 m ρ c)
theorem W2_arg2 (c : Dev nD) : W2 m ρ c (Proc.devRef .tc main_arg2) = x2 m c :=
  (W2_of_ne m ρ c main_arg2 (by decide)).trans (W1_arg2 m ρ c)
theorem W2_arg4 (c : Dev nD) : W2 m ρ c (Proc.devRef .tc main_arg4) = x4 m c :=
  (W2_of_ne m ρ c main_arg4 (by decide)).trans (W1_arg4 m ρ c)
theorem W2_arg5 (c : Dev nD) : W2 m ρ c (Proc.devRef .tc main_arg5) = x5 m c :=
  (W2_of_ne m ρ c main_arg5 (by decide)).trans (W1_arg5 m ρ c)
theorem W2_arg6 (c : Dev nD) : W2 m ρ c (Proc.devRef .tc main_arg6) = x6 m c :=
  (W2_of_ne m ρ c main_arg6 (by decide)).trans (W1_arg6 m ρ c)
theorem W2_arg7 (c : Dev nD) : W2 m ρ c (Proc.devRef .tc main_arg7) = x7 m c :=
  (W2_of_ne m ρ c main_arg7 (by decide)).trans (W1_arg7 m ρ c)
theorem W2_arg8 (c : Dev nD) : W2 m ρ c (Proc.devRef .tc main_arg8) = x8 m c :=
  (W2_of_ne m ρ c main_arg8 (by decide)).trans (W1_arg8 m ρ c)

end Cert.KernelIdeal.Hand

end
-- ==== Proof.Reg1.lean ====
/-
  Region 1 (the per-node combine with relu) as one whole-array function.

  The grid has 25 points; point t stages rows 8000·t … 8000·t + 7999 of the aggregated messages and of the
  self-loop term (both 200000 × 16), the 1 × 16 bias, and writes back the same rows of the result.  The body
  adds the two blocks entry by entry, adds the bias row broadcast down the rows, and takes the maximum with zero:
  entry (r, c) of a block is max((a(r, c) + h(r, c)) + bias(0, c), 0).  On whole arrays the host computes the same
  expression with the bias row broadcast to 200000 × 16; the block's row r is the array's row 8000·t + r and
  the column is unchanged, so each block is a block of that whole-array function, and the 25 blocks tile it.
-/
import proofs.«134756_j14551349199033_1_alg».proof.Proof.Gen.KernelIdeal.Frame
import proofs.«134756_j14551349199033_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.R1

open Cert.KernelIdeal Cert.KernelIdeal.Gen

theorem hz2 : (![0, 0] : Fin 2 → Nat) = fun _ => 0 := funext fun a => by fin_cases a <;> rfl

/-- The bias entry an output entry reads: row 0, the entry's column. -/
abbrev bix (j : S8000x16.Idx) : S1x16.Idx := fun a => match a with
  | ⟨0, _⟩ => ⟨0, Nat.one_pos⟩
  | ⟨1, _⟩ => ⟨(j 1).val, (j 1).isLt⟩

/-- The body's stored value at an entry: max(·, 0) of the sum of the two blocks' entries and the bias entry of that column. -/
theorem pay_apply (x0 x2 : Vec Ideal S8000x16 .f32) (x5 : Vec Ideal S1x16 .f32) (j : S8000x16.Idx) :
    k1_pay1 (F := Ideal) x0 x2 x5 j = max ((x0 j + x2 j) + x5 (bix j)) (Ideal.ofBits .f32 0x00000000#32) := by
  unfold k1_pay1
  simp only [shapeCast_self]
  have e : broadcastTo S8000x16 x5 broadcasts_S1x16_S8000x16 j = x5 (bix j) :=
    broadcastTo_apply x5 broadcasts_S1x16_S8000x16 j (bix j) (fun a => match a with
      | ⟨0, _⟩ => by show 0 = if (1 : Nat) = 1 then 0 else _; rw [if_pos rfl]
      | ⟨1, _⟩ => by show (j 1).val = if (16 : Nat) = 1 then 0 else (j 1).val; rw [if_neg (by decide)])
  show max ((x0 j + x2 j) + broadcastTo S8000x16 x5 broadcasts_S1x16_S8000x16 j) _ = _
  rw [e]
  rfl

/-- The host's expression on whole arrays: the two arrays added, the bias row broadcast down the rows added, the maximum with the zero array. -/
abbrev comb (a h : FVec Ideal Cert.ReferenceIdeal.S200000x16 .f32) (b : FVec Ideal Cert.ReferenceIdeal.S1x16 .f32) :
    FVec Ideal Cert.ReferenceIdeal.S200000x16 .f32 :=
  maximumf (addf (addf a h) (broadcastInDim Cert.ReferenceIdeal.S200000x16 ![0, 1] Cert.ReferenceIdeal.Gen.bcast_S1x16_S200000x16_0_1 b)) (Cert.ReferenceIdeal.Read.val_main_call0_v0 (F := Ideal))

/-- That expression at an entry. -/
theorem comb_apply (a h : FVec Ideal Cert.ReferenceIdeal.S200000x16 .f32) (b : FVec Ideal Cert.ReferenceIdeal.S1x16 .f32)
    (i : Cert.ReferenceIdeal.S200000x16.Idx) : comb a h b i = max ((a i + h i) + b (Cert.ReferenceIdeal.Read.idx_main_v48 i)) (Ideal.ofBits .f32 0x00000000#32) := by
  have e1 : broadcastInDim Cert.ReferenceIdeal.S200000x16 ![0, 1] Cert.ReferenceIdeal.Gen.bcast_S1x16_S200000x16_0_1 b i = b (Cert.ReferenceIdeal.Read.idx_main_v48 i) :=
    broadcastInDim_apply _ Cert.ReferenceIdeal.Gen.bcast_S1x16_S200000x16_0_1 b i (Cert.ReferenceIdeal.Read.idx_main_v48 i) (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])
  have e2 : Cert.ReferenceIdeal.Read.val_main_call0_v0 (F := Ideal) i = Ideal.ofBits .f32 0x00000000#32 :=
    (Cert.ReferenceIdeal.Read.val_main_call0_v0_apply i).trans (Cert.ReferenceIdeal.Read.val_main_call0_cst_apply _)
  show max ((a i + h i) + _) _ = _
  rw [e1, e2]

/-- The printed index maps over the 25 points: the two data windows and the result window sit at block row t,
    column block 0; the bias window always at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the host expression of the arrays the region found. -/
theorem flushed_eq (c : Dev nD) (t : Fin cfg1.N) :
    (dat1 (F := Ideal) V c).flushed 3 t = ((cfg1.win 3).blk t).view.read (Elt Ideal) (comb (V c main_v42) (V c main_v45) (V c main_v46)) := by
  show (cfg1.win 3).cut (grid1.coords t) ((dat1 V c).after 3 t) = _
  rw [after1_3]
  unfold out1_3
  rw [View.canon_unit_zero hz2]
  simp only [View.ld_unit_zero (S := S8000x16) hz2, View.ld_unit_zero (S := S1x16) hz2]
  obtain ⟨e0, e1, e2, e3, e4, e5, e6, e7⟩ := idx_facts t
  funext j
  show k1_pay1 (iblk1 V c 0 t) (iblk1 V c 1 t) (iblk1 V c 2 t) j
    = comb (V c main_v42) (V c main_v45) (V c main_v46) (((cfg1.win 3).blk t).view.emb j)
  refine (pay_apply _ _ _ j).trans ?_
  refine Eq.trans ?_ (comb_apply _ _ _ _).symm
  have h0 : iblk1 V c 0 t j = V c main_v42 (((cfg1.win 3).blk t).view.emb j) := by
    show V c main_v42 (((cfg1.win 0).blk t).view.emb j) = _
    refine congrArg _ (funext fun a => Fin.ext ?_)
    match a with
    | ⟨0, _⟩ => show win1_0.index t (0 : Fin 2) * 8000 + 1 * (j 0).val = win1_3.index t (0 : Fin 2) * 8000 + 1 * (j 0).val; omega
    | ⟨1, _⟩ => show win1_0.index t (1 : Fin 2) * 16 + 1 * (j 1).val = win1_3.index t (1 : Fin 2) * 16 + 1 * (j 1).val; omega
  have h1 : iblk1 V c 1 t j = V c main_v45 (((cfg1.win 3).blk t).view.emb j) := by
    show V c main_v45 (((cfg1.win 1).blk t).view.emb j) = _
    refine congrArg _ (funext fun a => Fin.ext ?_)
    match a with
    | ⟨0, _⟩ => show win1_1.index t (0 : Fin 2) * 8000 + 1 * (j 0).val = win1_3.index t (0 : Fin 2) * 8000 + 1 * (j 0).val; omega
    | ⟨1, _⟩ => show win1_1.index t (1 : Fin 2) * 16 + 1 * (j 1).val = win1_3.index t (1 : Fin 2) * 16 + 1 * (j 1).val; omega
  have h2 : iblk1 V c 2 t (bix j) = V c main_v46 (Cert.ReferenceIdeal.Read.idx_main_v48 (((cfg1.win 3).blk t).view.emb j)) := by
    show V c main_v46 (((cfg1.win 2).blk t).view.emb (bix j)) = _
    refine congrArg _ (funext fun a => Fin.ext ?_)
    match a with
    | ⟨0, _⟩ => show win1_2.index t (0 : Fin 2) * 1 + 1 * 0 = 0; omega
    | ⟨1, _⟩ => show win1_2.index t (1 : Fin 2) * 16 + 1 * (j 1).val = win1_3.index t (1 : Fin 2) * 16 + 1 * (j 1).val; omega
  rw [h0, h1, h2]

/-- An index of the result array is in point t's block iff each coordinate is in the block's range. -/
theorem mem_blk (t : Fin cfg1.N) (i : S200000x16.Idx) :
    i ∈ ((cfg1.win 3).blk t).view.set ↔ ∀ a : Fin 2, win1_3.index t a * S8000x16.size a ≤ (i a).val ∧ (i a).val < win1_3.index t a * S8000x16.size a + S8000x16.size a := by
  show i ∈ ((View.whole main_v47).slice (win1_3.rect t)).set ↔ _
  rw [View.set_slice_whole, Rect.mem_set_unit]
  exact Iff.rfl

/-- Row r of the result lies in the block of point r / 8000. -/
theorem cover (i : S200000x16.Idx) : ∃ t : Fin cfg1.N, (cfg1.win 3).flush t = true ∧ i ∈ ((cfg1.win 3).blk t).view.set := by
  have hi0 : (i 0).val < 200000 := (i 0).isLt
  have hi1 : (i 1).val < 16 := (i 1).isLt
  have hN : grid1.N = 25 := N_1
  have ht : (i 0).val / 8000 < grid1.N := by rw [hN]; omega
  obtain ⟨e0, e1, e2, e3, e4, e5, e6, e7⟩ := idx_facts ⟨(i 0).val / 8000, ht⟩
  refine ⟨⟨(i 0).val / 8000, ht⟩, flush1_3 _, ?_⟩
  rw [mem_blk]
  intro a
  match a with
  | ⟨0, _⟩ =>
    show win1_3.index ⟨(i 0).val / 8000, ht⟩ (0 : Fin 2) * 8000 ≤ (i 0).val ∧ (i 0).val < win1_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win1_3.index ⟨(i 0).val / 8000, ht⟩ (1 : Fin 2) * 16 ≤ (i 1).val ∧ (i 1).val < win1_3.index ⟨(i 0).val / 8000, ht⟩ (1 : Fin 2) * 16 + 16
    rw [e7]; omega

/-- After region 1 its result array holds the host expression of the three arrays as the region found them. -/
theorem value (c : Dev nD) : (dat1 (F := Ideal) V c).arrAt 3 cfg1.N = comb (V c main_v42) (V c main_v45) (V c main_v46) :=
  (dat1 (F := Ideal) V c).arrAt_eq_of_cover 3 (comb (V c main_v42) (V c main_v45) (V c main_v46)) (fun t _ => flushed_eq V c t) cover

end Cert.KernelIdeal.Hand.R1

end
-- ==== Proof.Reg2.lean ====
/-
  Region 2 (the second dense projection) as one whole-array function.

  The grid has 25 points; point t stages rows 8000·t … 8000·t + 7999 of the hidden array (200000 × 16) and the
  whole 16 × 16 weight matrix, and writes back the same rows of the 200000 × 16 result.  The body rounds both
  operands to bf16 (the identity on extended reals) and multiplies into a zero accumulator: entry (r, c) of a
  block is Σ_k hblock(r, k) · w(k, c), which is the host product's entry (8000·t + r, c) of the whole arrays.
  The 25 blocks tile the result.
-/
import proofs.«134756_j14551349199033_1_alg».proof.Proof.Gen.KernelIdeal.Frame
import proofs.«134756_j14551349199033_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.R2

open Cert.KernelIdeal Cert.KernelIdeal.Gen

theorem hz2 : (![0, 0] : Fin 2 → Nat) = fun _ => 0 := funext fun a => by fin_cases a <;> rfl

/-- The body's matrix product, contracting the 16. -/
abbrev D : DotDims S8000x16 S16x16 S8000x16 := dot_S8000x16_S16x16_S8000x16_1_0_0_1_n_n

/-- Left operand's index for output entry j and contraction position k: (row of j, k). -/
abbrev lix (j : S8000x16.Idx) (k : Fin 16) : S8000x16.Idx := fun a => match a with
  | ⟨0, _⟩ => ⟨(j 0).val, (j 0).isLt⟩
  | ⟨1, _⟩ => ⟨k.val, k.isLt⟩
/-- Right operand's index: (k, column of j). -/
abbrev rix (j : S8000x16.Idx) (k : Fin 16) : S16x16.Idx := fun a => match a with
  | ⟨0, _⟩ => ⟨k.val, k.isLt⟩
  | ⟨1, _⟩ => ⟨(j 1).val, (j 1).isLt⟩

theorem lhs_0 (i : S8000x16.Idx) (q : D.contr.Idx) : (D.lhsIdx i q 0).val = (i 0).val := by
  unfold DotDims.lhsIdx
  rw [dif_neg (show ¬(0 : Fin S8000x16.rank) ∈ D.lhsBatch by decide), dif_pos (show (0 : Fin S8000x16.rank) ∈ D.lhsNonContracting by decide)]
  rfl
theorem lhs_1 (i : S8000x16.Idx) (q : D.contr.Idx) : (D.lhsIdx i q 1).val = (q ⟨0, by decide⟩).val :=
  D.lhsIdx_val_of_single rfl i q
theorem rhs_0 (i : S8000x16.Idx) (q : D.contr.Idx) : (D.rhsIdx i q 0).val = (q ⟨0, by decide⟩).val :=
  D.rhsIdx_val_of_single rfl i q
theorem rhs_1 (i : S8000x16.Idx) (q : D.contr.Idx) : (D.rhsIdx i q 1).val = (i 1).val := by
  unfold DotDims.rhsIdx
  rw [dif_neg (show ¬(1 : Fin S16x16.rank) ∈ D.rhsBatch by decide), dif_pos (show (1 : Fin S16x16.rank) ∈ D.rhsNonContracting by decide)]
  rfl

/-- The body's product at an entry: the plain sum over the contracted axis (rounding to bf16 is the identity on
    extended reals, and the accumulator starts at zero). -/
theorem mm_apply (x0 : FVec Ideal S8000x16 .bf16) (x1 : FVec Ideal S16x16 .bf16) (j : S8000x16.Idx) :
    matmul (F := Ideal) D none x0 x1 (constant S8000x16 .f32 0x00000000#32) j = ∑ k : Fin 16, x0 (lix j k) * x1 (rix j k) := by
  refine (Ideal.matmul_constant_zero_apply D none _ _ j).trans ?_
  rw [← Equiv.sum_comp (ValueIdx.contrEquiv1 D 16 rfl rfl).symm]
  refine Finset.sum_congr rfl fun k _ => ?_
  have hk := ValueIdx.contrEquiv1_symm_val D 16 rfl rfl k
  have el : D.lhsIdx j ((ValueIdx.contrEquiv1 D 16 rfl rfl).symm k) = lix j k := funext fun a => Fin.ext (by
    match a with
    | ⟨0, _⟩ => exact lhs_0 _ _
    | ⟨1, _⟩ => exact (lhs_1 _ _).trans hk)
  have er : D.rhsIdx j ((ValueIdx.contrEquiv1 D 16 rfl rfl).symm k) = rix j k := funext fun a => Fin.ext (by
    match a with
    | ⟨0, _⟩ => exact (rhs_0 _ _).trans hk
    | ⟨1, _⟩ => exact rhs_1 _ _)
  rw [el, er]

/-- The host's product record of the two whole arrays. -/
abbrev RD : DotDims Cert.ReferenceIdeal.S200000x16 Cert.ReferenceIdeal.S16x16 Cert.ReferenceIdeal.S200000x16 := Cert.ReferenceIdeal.dot_S200000x16_S16x16_S200000x16_1_0_0_1_n_n

/-- The host's product of two whole arrays. -/
abbrev prod (x : FVec Ideal Cert.ReferenceIdeal.S200000x16 .f32) (w : FVec Ideal Cert.ReferenceIdeal.S16x16 .f32) :
    FVec Ideal Cert.ReferenceIdeal.S200000x16 .f32 :=
  Host.dotGeneral (F := Ideal) (φ₁ := .f32) (φ₂ := .f32) RD none x w

/-- The host's product at an entry: Σ_k x(row, k) · w(k, column). -/
theorem prod_apply (x : FVec Ideal Cert.ReferenceIdeal.S200000x16 .f32) (w : FVec Ideal Cert.ReferenceIdeal.S16x16 .f32) (i : Cert.ReferenceIdeal.S200000x16.Idx) :
    prod x w i = ∑ k : Fin 16, x (Cert.ReferenceIdeal.Read.lidx_main_v51 i k) * w (Cert.ReferenceIdeal.Read.ridx_main_v51 i k) := by
  unfold prod
  simp only [Host.dotGeneral]
  rw [Ideal.dotGeneral_apply, ← Equiv.sum_comp (ValueIdx.contrEquiv1 RD 16 rfl rfl).symm]
  refine Finset.sum_congr rfl fun k _ => ?_
  have hk := ValueIdx.contrEquiv1_symm_val RD 16 rfl rfl k
  have el : RD.lhsIdx i ((ValueIdx.contrEquiv1 RD 16 rfl rfl).symm k) = Cert.ReferenceIdeal.Read.lidx_main_v51 i k := funext fun a => Fin.ext (by
    match a with
    | ⟨0, _⟩ => exact Cert.ReferenceIdeal.Read.lhs_main_v51_0 _ _
    | ⟨1, _⟩ => exact (Cert.ReferenceIdeal.Read.lhs_main_v51_1 _ _).trans hk)
  have er : RD.rhsIdx i ((ValueIdx.contrEquiv1 RD 16 rfl rfl).symm k) = Cert.ReferenceIdeal.Read.ridx_main_v51 i k := funext fun a => Fin.ext (by
    match a with
    | ⟨0, _⟩ => exact (Cert.ReferenceIdeal.Read.rhs_main_v51_0 _ _).trans hk
    | ⟨1, _⟩ => exact Cert.ReferenceIdeal.Read.rhs_main_v51_1 _ _)
  rw [el, er]

/-- The body's stored value at an entry. -/
theorem pay_apply (x0 : Vec Ideal S8000x16 .f32) (x1 : Vec Ideal S16x16 .f32) (j : S8000x16.Idx) :
    k2_pay1 (F := Ideal) x0 x1 j = ∑ k : Fin 16, x0 (lix j k) * x1 (rix j k) := by
  unfold k2_pay1
  simp only [shapeCast_self]
  exact mm_apply _ _ j

/-- The printed index maps over the 25 points: the hidden-array window and the result window sit at block row
    t, column block 0; the weight window always at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the host product of the arrays the region found. -/
theorem flushed_eq (c : Dev nD) (t : Fin cfg2.N) :
    (dat2 (F := Ideal) V c).flushed 2 t = ((cfg2.win 2).blk t).view.read (Elt Ideal) (prod (V c main_v47) (V c main_arg5)) := by
  show (cfg2.win 2).cut (grid2.coords t) ((dat2 V c).after 2 t) = _
  rw [after2_2]
  unfold out2_2
  rw [View.canon_unit_zero hz2]
  simp only [View.ld_unit_zero (S := S8000x16) hz2, View.ld_unit_zero (S := S16x16) hz2]
  obtain ⟨e0, e1, e2, e3, e4, e5⟩ := idx_facts t
  funext j
  show k2_pay1 (iblk2 V c 0 t) (iblk2 V c 1 t) j = prod (V c main_v47) (V c main_arg5) (((cfg2.win 2).blk t).view.emb j)
  refine (pay_apply _ _ j).trans ?_
  refine Eq.trans ?_ (prod_apply _ _ _).symm
  refine Finset.sum_congr rfl fun k _ => ?_
  have h0 : iblk2 V c 0 t (lix j k) = V c main_v47 (Cert.ReferenceIdeal.Read.lidx_main_v51 (((cfg2.win 2).blk t).view.emb j) k) := by
    show V c main_v47 (((cfg2.win 0).blk t).view.emb (lix j k)) = _
    refine congrArg _ (funext fun a => Fin.ext ?_)
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 16 + 1 * k.val = k.val; omega
  have h1 : iblk2 V c 1 t (rix j k) = V c main_arg5 (Cert.ReferenceIdeal.Read.ridx_main_v51 (((cfg2.win 2).blk t).view.emb j) k) := by
    show V c main_arg5 (((cfg2.win 1).blk t).view.emb (rix j k)) = _
    refine congrArg _ (funext fun a => Fin.ext ?_)
    match a with
    | ⟨0, _⟩ => show win2_1.index t (0 : Fin 2) * 16 + 1 * k.val = k.val; omega
    | ⟨1, _⟩ => show win2_1.index t (1 : Fin 2) * 16 + 1 * (j 1).val = win2_2.index t (1 : Fin 2) * 16 + 1 * (j 1).val; omega
  rw [h0, h1]

/-- An index of the result array is in point t's block iff each coordinate is in the block's range. -/
theorem mem_blk (t : Fin cfg2.N) (i : S200000x16.Idx) :
    i ∈ ((cfg2.win 2).blk t).view.set ↔ ∀ a : Fin 2, win2_2.index t a * S8000x16.size a ≤ (i a).val ∧ (i a).val < win2_2.index t a * S8000x16.size a + S8000x16.size a := by
  show i ∈ ((View.whole main_v48).slice (win2_2.rect t)).set ↔ _
  rw [View.set_slice_whole, Rect.mem_set_unit]
  exact Iff.rfl

/-- Row r of the result lies in the block of point r / 8000. -/
theorem cover (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  have hN : grid2.N = 25 := N_2
  have ht : (i 0).val / 8000 < grid2.N := by rw [hN]; omega
  obtain ⟨e0, e1, e2, e3, e4, e5⟩ := idx_facts ⟨(i 0).val / 8000, ht⟩
  refine ⟨⟨(i 0).val / 8000, ht⟩, flush2_2 _, ?_⟩
  rw [mem_blk]
  intro a
  match a with
  | ⟨0, _⟩ =>
    show win2_2.index ⟨(i 0).val / 8000, ht⟩ (0 : Fin 2) * 8000 ≤ (i 0).val ∧ (i 0).val < win2_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win2_2.index ⟨(i 0).val / 8000, ht⟩ (1 : Fin 2) * 16 ≤ (i 1).val ∧ (i 1).val < win2_2.index ⟨(i 0).val / 8000, ht⟩ (1 : Fin 2) * 16 + 16
    rw [e5]; omega

/-- After region 2 its result array holds the host product of the two arrays as the region found them. -/
theorem value (c : Dev nD) : (dat2 (F := Ideal) V c).arrAt 2 cfg2.N = prod (V c main_v47) (V c main_arg5) :=
  (dat2 (F := Ideal) V c).arrAt_eq_of_cover 2 (prod (V c main_v47) (V c main_arg5)) (fun t _ => flushed_eq V c t) cover

end Cert.KernelIdeal.Hand.R2

end
-- ==== Proof.ChainB.lean ====
/-
  The first combine, and the second projection.

  Between the first and the second region the host gathers the projected rows at each edge's source, scales
  them by the edge weight, scatter-adds them at the edge's target (the aggregated messages), scales the
  projection by the reciprocal degree (the self-loop term), and reshapes the bias to one row.  These are the
  reference's operations of the same stages on the same values, so each buffer holds the reference's stage.
  The reshaped bias [16] → [1, 16] is, entry by entry, the reference's broadcast of the bias to one row: both
  read the bias at the column.  The second region (Region 1's function) then leaves relu(agg + self + bias),
  the reference's hidden layer; the third region (Region 2's function) leaves its product with the second
  weight matrix.
-/
import proofs.«134756_j14551349199033_1_alg».proof.Proof.ChainA
import proofs.«134756_j14551349199033_1_alg».proof.Proof.Reg1
import proofs.«134756_j14551349199033_1_alg».proof.Proof.Reg2
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.ReferenceIdeal.Read

variable (m : (ℓ : Loc nD τ sig) → Buf (Elt Ideal) ℓ) (ρ : Dev nD → PrngReg)

/-! ## After the second stretch of host operations -/

/-- The aggregated messages of the first layer. -/
theorem W3_v42 (c : Dev nD) : W3 m ρ c (Proc.devRef .tc main_v42) = val_main_v40 (F := Ideal) (x0 m c) (x1 m c) (x3 m c) := by
  show StableHlo.after hostOps1 (W2 m ρ c) (Proc.devRef .tc main_v42) = _
  after_results_simp
  rw [W2_v1, W2_v3, W2_v26, W2_v29]
  rfl
/-- The self-loop term of the first layer. -/
theorem W3_v45 (c : Dev nD) : W3 m ρ c (Proc.devRef .tc main_v45) = val_main_v45 (F := Ideal) (x0 m c) (x1 m c) (x3 m c) := by
  show StableHlo.after hostOps1 (W2 m ρ c) (Proc.devRef .tc main_v45) = _
  after_results_simp
  rw [W2_v28, W2_v29]
  rfl
/-- The first bias as one row. -/
theorem W3_v46 (c : Dev nD) : W3 m ρ c (Proc.devRef .tc main_v46) = val_main_v47 (F := Ideal) (x4 m c) := by
  show StableHlo.after hostOps1 (W2 m ρ c) (Proc.devRef .tc main_v46) = _
  after_results_simp
  rw [W2_arg4]
  funext i
  show shapeCast S1x16 (x4 m c) shapeCasts_S16_S1x16 i = _
  rw [val_main_v47_apply]
  refine shapeCast_apply (x4 m c) shapeCasts_S16_S1x16 i (idx_main_v47 i) ?_
  show ((⟨1, ![16]⟩ : Shape).rowMajor (idx_main_v47 i)).val = ((⟨2, ![1, 16]⟩ : Shape).rowMajor i).val
  rw [Shape.rowMajor_val_one, Shape.rowMajor_val_two]
  have h0 : (i 0).val < 1 := (i 0).isLt
  show (i 1).val = (i 0).val * 16 + (i 1).val
  omega
theorem W3_v1 (c : Dev nD) : W3 m ρ c (Proc.devRef .tc main_v1) = val_main_v1 (F := Ideal) (x1 m c) := by
  show StableHlo.after hostOps1 (W2 m ρ c) (Proc.devRef .tc main_v1) = _
  after_results_simp
  exact W2_v1 m ρ c
theorem W3_v3 (c : Dev nD) : W3 m ρ c (Proc.devRef .tc main_v3) = val_main_v3 (F := Ideal) (x1 m c) := by
  show StableHlo.after hostOps1 (W2 m ρ c) (Proc.devRef .tc main_v3) = _
  after_results_simp
  exact W2_v3 m ρ c
theorem W3_v26 (c : Dev nD) : W3 m ρ c (Proc.devRef .tc main_v26) = val_main_v26 (F := Ideal) (x1 m c) := by
  show StableHlo.after hostOps1 (W2 m ρ c) (Proc.devRef .tc main_v26) = _
  after_results_simp
  exact W2_v26 m ρ c
theorem W3_v28 (c : Dev nD) : W3 m ρ c (Proc.devRef .tc main_v28) = val_main_v42 (F := Ideal) (x1 m c) := by
  show StableHlo.after hostOps1 (W2 m ρ c) (Proc.devRef .tc main_v28) = _
  after_results_simp
  exact W2_v28 m ρ c
theorem W3_arg2 (c : Dev nD) : W3 m ρ c (Proc.devRef .tc main_arg2) = x2 m c := by
  show StableHlo.after hostOps1 (W2 m ρ c) (Proc.devRef .tc main_arg2) = _
  after_results_simp
  exact W2_arg2 m ρ c
theorem W3_arg5 (c : Dev nD) : W3 m ρ c (Proc.devRef .tc main_arg5) = x5 m c := by
  show StableHlo.after hostOps1 (W2 m ρ c) (Proc.devRef .tc main_arg5) = _
  after_results_simp
  exact W2_arg5 m ρ c
theorem W3_arg6 (c : Dev nD) : W3 m ρ c (Proc.devRef .tc main_arg6) = x6 m c := by
  show StableHlo.after hostOps1 (W2 m ρ c) (Proc.devRef .tc main_arg6) = _
  after_results_simp
  exact W2_arg6 m ρ c
theorem W3_arg7 (c : Dev nD) : W3 m ρ c (Proc.devRef .tc main_arg7) = x7 m c := by
  show StableHlo.after hostOps1 (W2 m ρ c) (Proc.devRef .tc main_arg7) = _
  after_results_simp
  exact W2_arg7 m ρ c
theorem W3_arg8 (c : Dev nD) : W3 m ρ c (Proc.devRef .tc main_arg8) = x8 m c := by
  show StableHlo.after hostOps1 (W2 m ρ c) (Proc.devRef .tc main_arg8) = _
  after_results_simp
  exact W2_arg8 m ρ c

/-! ## After the second region -/

/-- The hidden layer: relu of aggregated messages plus self-loop term plus bias. -/
theorem W4_v47 (c : Dev nD) : W4 m ρ c (Proc.devRef .tc main_v47) = val_main_v50 (F := Ideal) (x0 m c) (x1 m c) (x3 m c) (x4 m c) := by
  refine (W4_arr m ρ c 3).trans ((R1.value (V3 m ρ) c).trans ?_)
  show R1.comb (W3 m ρ c (Proc.devRef .tc main_v42)) (W3 m ρ c (Proc.devRef .tc main_v45)) (W3 m ρ c (Proc.devRef .tc main_v46)) = _
  rw [W3_v42, W3_v45, W3_v46]
  rfl
theorem W4_v1 (c : Dev nD) : W4 m ρ c (Proc.devRef .tc main_v1) = val_main_v1 (F := Ideal) (x1 m c) :=
  (W4_of_ne m ρ c main_v1 (by decide)).trans (W3_v1 m ρ c)
theorem W4_v3 (c : Dev nD) : W4 m ρ c (Proc.devRef .tc main_v3) = val_main_v3 (F := Ideal) (x1 m c) :=
  (W4_of_ne m ρ c main_v3 (by decide)).trans (W3_v3 m ρ c)
theorem W4_v26 (c : Dev nD) : W4 m ρ c (Proc.devRef .tc main_v26) = val_main_v26 (F := Ideal) (x1 m c) :=
  (W4_of_ne m ρ c main_v26 (by decide)).trans (W3_v26 m ρ c)
theorem W4_v28 (c : Dev nD) : W4 m ρ c (Proc.devRef .tc main_v28) = val_main_v42 (F := Ideal) (x1 m c) :=
  (W4_of_ne m ρ c main_v28 (by decide)).trans (W3_v28 m ρ c)
theorem W4_arg2 (c : Dev nD) : W4 m ρ c (Proc.devRef .tc main_arg2) = x2 m c :=
  (W4_of_ne m ρ c main_arg2 (by decide)).trans (W3_arg2 m ρ c)
theorem W4_arg5 (c : Dev nD) : W4 m ρ c (Proc.devRef .tc main_arg5) = x5 m c :=
  (W4_of_ne m ρ c main_arg5 (by decide)).trans (W3_arg5 m ρ c)
theorem W4_arg6 (c : Dev nD) : W4 m ρ c (Proc.devRef .tc main_arg6) = x6 m c :=
  (W4_of_ne m ρ c main_arg6 (by decide)).trans (W3_arg6 m ρ c)
theorem W4_arg7 (c : Dev nD) : W4 m ρ c (Proc.devRef .tc main_arg7) = x7 m c :=
  (W4_of_ne m ρ c main_arg7 (by decide)).trans (W3_arg7 m ρ c)
theorem W4_arg8 (c : Dev nD) : W4 m ρ c (Proc.devRef .tc main_arg8) = x8 m c :=
  (W4_of_ne m ρ c main_arg8 (by decide)).trans (W3_arg8 m ρ c)

/-! ## After the third region -/

/-- The second projection: the hidden layer times the second weight matrix. -/
theorem W5_v48 (c : Dev nD) : W5 m ρ c (Proc.devRef .tc main_v48) = val_main_v51 (F := Ideal) (x0 m c) (x1 m c) (x3 m c) (x4 m c) (x5 m c) := by
  refine (W5_arr m ρ c 2).trans ((R2.value (V4 m ρ) c).trans ?_)
  show R2.prod (W4 m ρ c (Proc.devRef .tc main_v47)) (W4 m ρ c (Proc.devRef .tc main_arg5)) = _
  rw [W4_v47, W4_arg5]
  rfl
theorem W5_v1 (c : Dev nD) : W5 m ρ c (Proc.devRef .tc main_v1) = val_main_v1 (F := Ideal) (x1 m c) :=
  (W5_of_ne m ρ c main_v1 (by decide)).trans (W4_v1 m ρ c)
theorem W5_v3 (c : Dev nD) : W5 m ρ c (Proc.devRef .tc main_v3) = val_main_v3 (F := Ideal) (x1 m c) :=
  (W5_of_ne m ρ c main_v3 (by decide)).trans (W4_v3 m ρ c)
theorem W5_v26 (c : Dev nD) : W5 m ρ c (Proc.devRef .tc main_v26) = val_main_v26 (F := Ideal) (x1 m c) :=
  (W5_of_ne m ρ c main_v26 (by decide)).trans (W4_v26 m ρ c)
theorem W5_v28 (c : Dev nD) : W5 m ρ c (Proc.devRef .tc main_v28) = val_main_v42 (F := Ideal) (x1 m c) :=
  (W5_of_ne m ρ c main_v28 (by decide)).trans (W4_v28 m ρ c)
theorem W5_arg2 (c : Dev nD) : W5 m ρ c (Proc.devRef .tc main_arg2) = x2 m c :=
  (W5_of_ne m ρ c main_arg2 (by decide)).trans (W4_arg2 m ρ c)
theorem W5_arg6 (c : Dev nD) : W5 m ρ c (Proc.devRef .tc main_arg6) = x6 m c :=
  (W5_of_ne m ρ c main_arg6 (by decide)).trans (W4_arg6 m ρ c)
theorem W5_arg7 (c : Dev nD) : W5 m ρ c (Proc.devRef .tc main_arg7) = x7 m c :=
  (W5_of_ne m ρ c main_arg7 (by decide)).trans (W4_arg7 m ρ c)
theorem W5_arg8 (c : Dev nD) : W5 m ρ c (Proc.devRef .tc main_arg8) = x8 m c :=
  (W5_of_ne m ρ c main_arg8 (by decide)).trans (W4_arg8 m ρ c)

end Cert.KernelIdeal.Hand

end
-- ==== Proof.Reg3.lean ====
/-
  Region 3 (the per-node combine) as one whole-array function.

  The grid has 25 points; point t stages rows 8000·t … 8000·t + 7999 of the aggregated messages and of the
  self-loop term (both 200000 × 16), the 1 × 16 bias, and writes back the same rows of the result.  The body
  adds the two blocks entry by entry, adds the bias row broadcast down the rows:
  entry (r, c) of a block is (a(r, c) + h(r, c)) + bias(0, c).  On whole arrays the host computes the same
  expression with the bias row broadcast to 200000 × 16; the block's row r is the array's row 8000·t + r and
  the column is unchanged, so each block is a block of that whole-array function, and the 25 blocks tile it.
-/
import proofs.«134756_j14551349199033_1_alg».proof.Proof.Gen.KernelIdeal.Frame
import proofs.«134756_j14551349199033_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.R3

open Cert.KernelIdeal Cert.KernelIdeal.Gen

theorem hz2 : (![0, 0] : Fin 2 → Nat) = fun _ => 0 := funext fun a => by fin_cases a <;> rfl

/-- The bias entry an output entry reads: row 0, the entry's column. -/
abbrev bix (j : S8000x16.Idx) : S1x16.Idx := fun a => match a with
  | ⟨0, _⟩ => ⟨0, Nat.one_pos⟩
  | ⟨1, _⟩ => ⟨(j 1).val, (j 1).isLt⟩

/-- The body's stored value at an entry: the sum of the two blocks' entries and the bias entry of that column. -/
theorem pay_apply (x0 x2 : Vec Ideal S8000x16 .f32) (x5 : Vec Ideal S1x16 .f32) (j : S8000x16.Idx) :
    k3_pay1 (F := Ideal) x0 x2 x5 j = (x0 j + x2 j) + x5 (bix j) := by
  unfold k3_pay1
  simp only [shapeCast_self]
  have e : broadcastTo S8000x16 x5 broadcasts_S1x16_S8000x16 j = x5 (bix j) :=
    broadcastTo_apply x5 broadcasts_S1x16_S8000x16 j (bix j) (fun a => match a with
      | ⟨0, _⟩ => by show 0 = if (1 : Nat) = 1 then 0 else _; rw [if_pos rfl]
      | ⟨1, _⟩ => by show (j 1).val = if (16 : Nat) = 1 then 0 else (j 1).val; rw [if_neg (by decide)])
  show (x0 j + x2 j) + broadcastTo S8000x16 x5 broadcasts_S1x16_S8000x16 j = _
  rw [e]

/-- The host's expression on whole arrays: the two arrays added, the bias row broadcast down the rows added. -/
abbrev comb (a h : FVec Ideal Cert.ReferenceIdeal.S200000x16 .f32) (b : FVec Ideal Cert.ReferenceIdeal.S1x16 .f32) :
    FVec Ideal Cert.ReferenceIdeal.S200000x16 .f32 :=
  addf (addf a h) (broadcastInDim Cert.ReferenceIdeal.S200000x16 ![0, 1] Cert.ReferenceIdeal.Gen.bcast_S1x16_S200000x16_0_1 b)

/-- That expression at an entry. -/
theorem comb_apply (a h : FVec Ideal Cert.ReferenceIdeal.S200000x16 .f32) (b : FVec Ideal Cert.ReferenceIdeal.S1x16 .f32)
    (i : Cert.ReferenceIdeal.S200000x16.Idx) : comb a h b i = (a i + h i) + b (Cert.ReferenceIdeal.Read.idx_main_v48 i) := by
  have e1 : broadcastInDim Cert.ReferenceIdeal.S200000x16 ![0, 1] Cert.ReferenceIdeal.Gen.bcast_S1x16_S200000x16_0_1 b i = b (Cert.ReferenceIdeal.Read.idx_main_v48 i) :=
    broadcastInDim_apply _ Cert.ReferenceIdeal.Gen.bcast_S1x16_S200000x16_0_1 b i (Cert.ReferenceIdeal.Read.idx_main_v48 i) (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])
  show (a i + h i) + _ = _
  rw [e1]

/-- The printed index maps over the 25 points: the two data windows and the result window sit at block row t,
    column block 0; the bias window always at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point t writes back is block t of the host expression of the arrays the region found. -/
theorem flushed_eq (c : Dev nD) (t : Fin cfg3.N) :
    (dat3 (F := Ideal) V c).flushed 3 t = ((cfg3.win 3).blk t).view.read (Elt Ideal) (comb (V c main_v61) (V c main_v64) (V c main_v65)) := by
  show (cfg3.win 3).cut (grid3.coords t) ((dat3 V c).after 3 t) = _
  rw [after3_3]
  unfold out3_3
  rw [View.canon_unit_zero hz2]
  simp only [View.ld_unit_zero (S := S8000x16) hz2, View.ld_unit_zero (S := S1x16) hz2]
  obtain ⟨e0, e1, e2, e3, e4, e5, e6, e7⟩ := idx_facts t
  funext j
  show k3_pay1 (iblk3 V c 0 t) (iblk3 V c 1 t) (iblk3 V c 2 t) j
    = comb (V c main_v61) (V c main_v64) (V c main_v65) (((cfg3.win 3).blk t).view.emb j)
  refine (pay_apply _ _ _ j).trans ?_
  refine Eq.trans ?_ (comb_apply _ _ _ _).symm
  have h0 : iblk3 V c 0 t j = V c main_v61 (((cfg3.win 3).blk t).view.emb j) := by
    show V c main_v61 (((cfg3.win 0).blk t).view.emb j) = _
    refine congrArg _ (funext fun a => Fin.ext ?_)
    match a with
    | ⟨0, _⟩ => show win3_0.index t (0 : Fin 2) * 8000 + 1 * (j 0).val = win3_3.index t (0 : Fin 2) * 8000 + 1 * (j 0).val; omega
    | ⟨1, _⟩ => show win3_0.index t (1 : Fin 2) * 16 + 1 * (j 1).val = win3_3.index t (1 : Fin 2) * 16 + 1 * (j 1).val; omega
  have h1 : iblk3 V c 1 t j = V c main_v64 (((cfg3.win 3).blk t).view.emb j) := by
    show V c main_v64 (((cfg3.win 1).blk t).view.emb j) = _
    refine congrArg _ (funext fun a => Fin.ext ?_)
    match a with
    | ⟨0, _⟩ => show win3_1.index t (0 : Fin 2) * 8000 + 1 * (j 0).val = win3_3.index t (0 : Fin 2) * 8000 + 1 * (j 0).val; omega
    | ⟨1, _⟩ => show win3_1.index t (1 : Fin 2) * 16 + 1 * (j 1).val = win3_3.index t (1 : Fin 2) * 16 + 1 * (j 1).val; omega
  have h2 : iblk3 V c 2 t (bix j) = V c main_v65 (Cert.ReferenceIdeal.Read.idx_main_v48 (((cfg3.win 3).blk t).view.emb j)) := by
    show V c main_v65 (((cfg3.win 2).blk t).view.emb (bix j)) = _
    refine congrArg _ (funext fun a => Fin.ext ?_)
    match a with
    | ⟨0, _⟩ => show win3_2.index t (0 : Fin 2) * 1 + 1 * 0 = 0; omega
    | ⟨1, _⟩ => show win3_2.index t (1 : Fin 2) * 16 + 1 * (j 1).val = win3_3.index t (1 : Fin 2) * 16 + 1 * (j 1).val; omega
  rw [h0, h1, h2]

/-- An index of the result array is in point t's block iff each coordinate is in the block's range. -/
theorem mem_blk (t : Fin cfg3.N) (i : S200000x16.Idx) :
    i ∈ ((cfg3.win 3).blk t).view.set ↔ ∀ a : Fin 2, win3_3.index t a * S8000x16.size a ≤ (i a).val ∧ (i a).val < win3_3.index t a * S8000x16.size a + S8000x16.size a := by
  show i ∈ ((View.whole main_v66).slice (win3_3.rect t)).set ↔ _
  rw [View.set_slice_whole, Rect.mem_set_unit]
  exact Iff.rfl

/-- Row r of the result lies in the block of point r / 8000. -/
theorem cover (i : S200000x16.Idx) : ∃ t : Fin cfg3.N, (cfg3.win 3).flush t = true ∧ i ∈ ((cfg3.win 3).blk t).view.set := by
  have hi0 : (i 0).val < 200000 := (i 0).isLt
  have hi1 : (i 1).val < 16 := (i 1).isLt
  have hN : grid3.N = 25 := N_3
  have ht : (i 0).val / 8000 < grid3.N := by rw [hN]; omega
  obtain ⟨e0, e1, e2, e3, e4, e5, e6, e7⟩ := idx_facts ⟨(i 0).val / 8000, ht⟩
  refine ⟨⟨(i 0).val / 8000, ht⟩, flush3_3 _, ?_⟩
  rw [mem_blk]
  intro a
  match a with
  | ⟨0, _⟩ =>
    show win3_3.index ⟨(i 0).val / 8000, ht⟩ (0 : Fin 2) * 8000 ≤ (i 0).val ∧ (i 0).val < win3_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win3_3.index ⟨(i 0).val / 8000, ht⟩ (1 : Fin 2) * 16 ≤ (i 1).val ∧ (i 1).val < win3_3.index ⟨(i 0).val / 8000, ht⟩ (1 : Fin 2) * 16 + 16
    rw [e7]; omega

/-- After region 3 its result array holds the host expression of the three arrays as the region found them. -/
theorem value (c : Dev nD) : (dat3 (F := Ideal) V c).arrAt 3 cfg3.N = comb (V c main_v61) (V c main_v64) (V c main_v65) :=
  (dat3 (F := Ideal) V c).arrAt_eq_of_cover 3 (comb (V c main_v61) (V c main_v64) (V c main_v65)) (fun t _ => flushed_eq V c t) cover

end Cert.KernelIdeal.Hand.R3

end
-- ==== Proof.ChainC.lean ====
/-
  The second combine.

  Between the third and the fourth region the host repeats the first layer's edge operations on the second
  projection (gather at sources, scale by the edge weight, scatter-add at targets; the self-loop term; the
  second bias as one row): the reference's stages of the second layer on the same values.  The fourth region
  (Region 3's function) leaves aggregated messages plus self-loop term plus bias, the reference's second layer.
-/
import proofs.«134756_j14551349199033_1_alg».proof.Proof.ChainB
import proofs.«134756_j14551349199033_1_alg».proof.Proof.Reg3
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.ReferenceIdeal.Read

variable (m : (ℓ : Loc nD τ sig) → Buf (Elt Ideal) ℓ) (ρ : Dev nD → PrngReg)

/-! ## After the third stretch of host operations -/

/-- The aggregated messages of the second layer. -/
theorem W6_v61 (c : Dev nD) : W6 m ρ c (Proc.devRef .tc main_v61) = val_main_v64 (F := Ideal) (x0 m c) (x1 m c) (x3 m c) (x4 m c) (x5 m c) := by
  show StableHlo.after hostOps3 (W5 m ρ c) (Proc.devRef .tc main_v61) = _
  after_results_simp
  rw [W5_v1, W5_v3, W5_v26, W5_v48]
  rfl
/-- The self-loop term of the second layer. -/
theorem W6_v64 (c : Dev nD) : W6 m ρ c (Proc.devRef .tc main_v64) = val_main_v69 (F := Ideal) (x0 m c) (x1 m c) (x3 m c) (x4 m c) (x5 m c) := by
  show StableHlo.after hostOps3 (W5 m ρ c) (Proc.devRef .tc main_v64) = _
  after_results_simp
  rw [W5_v28, W5_v48]
  rfl
/-- The second bias as one row. -/
theorem W6_v65 (c : Dev nD) : W6 m ρ c (Proc.devRef .tc main_v65) = val_main_v71 (F := Ideal) (x6 m c) := by
  show StableHlo.after hostOps3 (W5 m ρ c) (Proc.devRef .tc main_v65) = _
  after_results_simp
  rw [W5_arg6]
  funext i
  show shapeCast S1x16 (x6 m c) shapeCasts_S16_S1x16 i = _
  rw [val_main_v71_apply]
  refine shapeCast_apply (x6 m c) shapeCasts_S16_S1x16 i (idx_main_v71 i) ?_
  show ((⟨1, ![16]⟩ : Shape).rowMajor (idx_main_v71 i)).val = ((⟨2, ![1, 16]⟩ : Shape).rowMajor i).val
  rw [Shape.rowMajor_val_one, Shape.rowMajor_val_two]
  have h0 : (i 0).val < 1 := (i 0).isLt
  show (i 1).val = (i 0).val * 16 + (i 1).val
  omega
theorem W6_arg2 (c : Dev nD) : W6 m ρ c (Proc.devRef .tc main_arg2) = x2 m c := by
  show StableHlo.after hostOps3 (W5 m ρ c) (Proc.devRef .tc main_arg2) = _
  after_results_simp
  exact W5_arg2 m ρ c
theorem W6_arg7 (c : Dev nD) : W6 m ρ c (Proc.devRef .tc main_arg7) = x7 m c := by
  show StableHlo.after hostOps3 (W5 m ρ c) (Proc.devRef .tc main_arg7) = _
  after_results_simp
  exact W5_arg7 m ρ c
theorem W6_arg8 (c : Dev nD) : W6 m ρ c (Proc.devRef .tc main_arg8) = x8 m c := by
  show StableHlo.after hostOps3 (W5 m ρ c) (Proc.devRef .tc main_arg8) = _
  after_results_simp
  exact W5_arg8 m ρ c

/-! ## After the fourth region -/

/-- The second layer's output. -/
theorem W7_v66 (c : Dev nD) : W7 m ρ c (Proc.devRef .tc main_v66) = val_main_v73 (F := Ideal) (x0 m c) (x1 m c) (x3 m c) (x4 m c) (x5 m c) (x6 m c) := by
  refine (W7_arr m ρ c 3).trans ((R3.value (V6 m ρ) c).trans ?_)
  show R3.comb (W6 m ρ c (Proc.devRef .tc main_v61)) (W6 m ρ c (Proc.devRef .tc main_v64)) (W6 m ρ c (Proc.devRef .tc main_v65)) = _
  rw [W6_v61, W6_v64, W6_v65]
  rfl
theorem W7_arg2 (c : Dev nD) : W7 m ρ c (Proc.devRef .tc main_arg2) = x2 m c :=
  (W7_of_ne m ρ c main_arg2 (by decide)).trans (W6_arg2 m ρ c)
theorem W7_arg7 (c : Dev nD) : W7 m ρ c (Proc.devRef .tc main_arg7) = x7 m c :=
  (W7_of_ne m ρ c main_arg7 (by decide)).trans (W6_arg7 m ρ c)
theorem W7_arg8 (c : Dev nD) : W7 m ρ c (Proc.devRef .tc main_arg8) = x8 m c :=
  (W7_of_ne m ρ c main_arg8 (by decide)).trans (W6_arg8 m ρ c)

end Cert.KernelIdeal.Hand

end
-- ==== Proof.Reg4.lean ====
/-
  Region 4 (the final linear layer) as one whole-array function.

  The grid has one point, which stages the whole pooled array (512 × 16), the whole 16 × 10 weight matrix and
  the 1 × 10 bias, and writes back the whole 512 × 10 result.  The body rounds the two matrix operands to bf16
  (the identity on extended reals), multiplies into a zero accumulator, and adds the bias row broadcast down
  the rows: entry (r, c) is Σ_k p(r, k) · w(k, c) + bias(0, c).  On the host the same is the product of the
  whole arrays plus the bias row broadcast to 512 × 10.
-/
import proofs.«134756_j14551349199033_1_alg».proof.Proof.Gen.KernelIdeal.Frame
import proofs.«134756_j14551349199033_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand.R4

open Cert.KernelIdeal Cert.KernelIdeal.Gen

theorem hz2 : (![0, 0] : Fin 2 → Nat) = fun _ => 0 := funext fun a => by fin_cases a <;> rfl

/-- The body's matrix product, contracting the 16. -/
abbrev D : DotDims S512x16 S16x10 S512x10 := dot_S512x16_S16x10_S512x10_1_0_0_1_n_n

/-- Left operand's index for output entry j and contraction position k: (row of j, k). -/
abbrev lix (j : S512x10.Idx) (k : Fin 16) : S512x16.Idx := fun a => match a with
  | ⟨0, _⟩ => ⟨(j 0).val, (j 0).isLt⟩
  | ⟨1, _⟩ => ⟨k.val, k.isLt⟩
/-- Right operand's index: (k, column of j). -/
abbrev rix (j : S512x10.Idx) (k : Fin 16) : S16x10.Idx := fun a => match a with
  | ⟨0, _⟩ => ⟨k.val, k.isLt⟩
  | ⟨1, _⟩ => ⟨(j 1).val, (j 1).isLt⟩

theorem lhs_0 (i : S512x10.Idx) (q : D.contr.Idx) : (D.lhsIdx i q 0).val = (i 0).val := by
  unfold DotDims.lhsIdx
  rw [dif_neg (show ¬(0 : Fin S512x16.rank) ∈ D.lhsBatch by decide), dif_pos (show (0 : Fin S512x16.rank) ∈ D.lhsNonContracting by decide)]
  rfl
theorem lhs_1 (i : S512x10.Idx) (q : D.contr.Idx) : (D.lhsIdx i q 1).val = (q ⟨0, by decide⟩).val :=
  D.lhsIdx_val_of_single rfl i q
theorem rhs_0 (i : S512x10.Idx) (q : D.contr.Idx) : (D.rhsIdx i q 0).val = (q ⟨0, by decide⟩).val :=
  D.rhsIdx_val_of_single rfl i q
theorem rhs_1 (i : S512x10.Idx) (q : D.contr.Idx) : (D.rhsIdx i q 1).val = (i 1).val := by
  unfold DotDims.rhsIdx
  rw [dif_neg (show ¬(1 : Fin S16x10.rank) ∈ D.rhsBatch by decide), dif_pos (show (1 : Fin S16x10.rank) ∈ D.rhsNonContracting by decide)]
  rfl

/-- The body's product at an entry: the plain sum over the contracted axis (rounding to bf16 is the identity on
    extended reals, and the accumulator starts at zero). -/
theorem mm_apply (x0 : FVec Ideal S512x16 .bf16) (x1 : FVec Ideal S16x10 .bf16) (j : S512x10.Idx) :
    matmul (F := Ideal) D none x0 x1 (constant S512x10 .f32 0x00000000#32) j = ∑ k : Fin 16, x0 (lix j k) * x1 (rix j k) := by
  refine (Ideal.matmul_constant_zero_apply D none _ _ j).trans ?_
  rw [← Equiv.sum_comp (ValueIdx.contrEquiv1 D 16 rfl rfl).symm]
  refine Finset.sum_congr rfl fun k _ => ?_
  have hk := ValueIdx.contrEquiv1_symm_val D 16 rfl rfl k
  have el : D.lhsIdx j ((ValueIdx.contrEquiv1 D 16 rfl rfl).symm k) = lix j k := funext fun a => Fin.ext (by
    match a with
    | ⟨0, _⟩ => exact lhs_0 _ _
    | ⟨1, _⟩ => exact (lhs_1 _ _).trans hk)
  have er : D.rhsIdx j ((ValueIdx.contrEquiv1 D 16 rfl rfl).symm k) = rix j k := funext fun a => Fin.ext (by
    match a with
    | ⟨0, _⟩ => exact (rhs_0 _ _).trans hk
    | ⟨1, _⟩ => exact rhs_1 _ _)
  rw [el, er]

/-- The host's product record of the two whole arrays. -/
abbrev RD : DotDims Cert.ReferenceIdeal.S512x16 Cert.ReferenceIdeal.S16x10 Cert.ReferenceIdeal.S512x10 := Cert.ReferenceIdeal.dot_S512x16_S16x10_S512x10_1_0_0_1_n_n

/-- The host's product of two whole arrays. -/
abbrev prod (x : FVec Ideal Cert.ReferenceIdeal.S512x16 .f32) (w : FVec Ideal Cert.ReferenceIdeal.S16x10 .f32) :
    FVec Ideal Cert.ReferenceIdeal.S512x10 .f32 :=
  Host.dotGeneral (F := Ideal) (φ₁ := .f32) (φ₂ := .f32) RD none x w

/-- The host's product at an entry: Σ_k x(row, k) · w(k, column). -/
theorem prod_apply (x : FVec Ideal Cert.ReferenceIdeal.S512x16 .f32) (w : FVec Ideal Cert.ReferenceIdeal.S16x10 .f32) (i : Cert.ReferenceIdeal.S512x10.Idx) :
    prod x w i = ∑ k : Fin 16, x (Cert.ReferenceIdeal.Read.lidx_main_v86 i k) * w (Cert.ReferenceIdeal.Read.ridx_main_v86 i k) := by
  unfold prod
  simp only [Host.dotGeneral]
  rw [Ideal.dotGeneral_apply, ← Equiv.sum_comp (ValueIdx.contrEquiv1 RD 16 rfl rfl).symm]
  refine Finset.sum_congr rfl fun k _ => ?_
  have hk := ValueIdx.contrEquiv1_symm_val RD 16 rfl rfl k
  have el : RD.lhsIdx i ((ValueIdx.contrEquiv1 RD 16 rfl rfl).symm k) = Cert.ReferenceIdeal.Read.lidx_main_v86 i k := funext fun a => Fin.ext (by
    match a with
    | ⟨0, _⟩ => exact Cert.ReferenceIdeal.Read.lhs_main_v86_0 _ _
    | ⟨1, _⟩ => exact (Cert.ReferenceIdeal.Read.lhs_main_v86_1 _ _).trans hk)
  have er : RD.rhsIdx i ((ValueIdx.contrEquiv1 RD 16 rfl rfl).symm k) = Cert.ReferenceIdeal.Read.ridx_main_v86 i k := funext fun a => Fin.ext (by
    match a with
    | ⟨0, _⟩ => exact (Cert.ReferenceIdeal.Read.rhs_main_v86_0 _ _).trans hk
    | ⟨1, _⟩ => exact Cert.ReferenceIdeal.Read.rhs_main_v86_1 _ _)
  rw [el, er]

/-- The bias entry an output entry reads: row 0, the entry's column. -/
abbrev bix (j : S512x10.Idx) : S1x10.Idx := fun a => match a with
  | ⟨0, _⟩ => ⟨0, Nat.one_pos⟩
  | ⟨1, _⟩ => ⟨(j 1).val, (j 1).isLt⟩

/-- The body's stored value at an entry: the product's sum plus the bias entry of that column. -/
theorem pay_apply (x0 : Vec Ideal S512x16 .f32) (x3 : Vec Ideal S16x10 .f32) (x6 : Vec Ideal S1x10 .f32) (j : S512x10.Idx) :
    k4_pay1 (F := Ideal) x0 x3 x6 j = (∑ k : Fin 16, x0 (lix j k) * x3 (rix j k)) + x6 (bix j) := by
  unfold k4_pay1
  simp only [shapeCast_self]
  have e : broadcastTo S512x10 x6 broadcasts_S1x10_S512x10 j = x6 (bix j) :=
    broadcastTo_apply x6 broadcasts_S1x10_S512x10 j (bix j) (fun a => match a with
      | ⟨0, _⟩ => by show 0 = if (1 : Nat) = 1 then 0 else _; rw [if_pos rfl]
      | ⟨1, _⟩ => by show (j 1).val = if (10 : Nat) = 1 then 0 else (j 1).val; rw [if_neg (by decide)])
  show matmul (F := Ideal) D none (truncf .bf16 x0 bitsLt_bf16_f32) (truncf .bf16 x3 bitsLt_bf16_f32) (constant S512x10 .f32 0x00000000#32) j
      + broadcastTo S512x10 x6 broadcasts_S1x10_S512x10 j = _
  rw [e, mm_apply]
  rfl

/-- The host's expression on whole arrays: the product plus the bias row broadcast down the rows. -/
abbrev lin (p : FVec Ideal Cert.ReferenceIdeal.S512x16 .f32) (w : FVec Ideal Cert.ReferenceIdeal.S16x10 .f32)
    (b : FVec Ideal Cert.ReferenceIdeal.S1x10 .f32) : FVec Ideal Cert.ReferenceIdeal.S512x10 .f32 :=
  addf (prod p w) (broadcastInDim Cert.ReferenceIdeal.S512x10 ![0, 1] Cert.ReferenceIdeal.Gen.bcast_S1x10_S512x10_0_1 b)

/-- That expression at an entry. -/
theorem lin_apply (p : FVec Ideal Cert.ReferenceIdeal.S512x16 .f32) (w : FVec Ideal Cert.ReferenceIdeal.S16x10 .f32)
    (b : FVec Ideal Cert.ReferenceIdeal.S1x10 .f32) (i : Cert.ReferenceIdeal.S512x10.Idx) :
    lin p w b i = (∑ k : Fin 16, p (Cert.ReferenceIdeal.Read.lidx_main_v86 i k) * w (Cert.ReferenceIdeal.Read.ridx_main_v86 i k)) + b (Cert.ReferenceIdeal.Read.idx_main_v88 i) := by
  have e1 : broadcastInDim Cert.ReferenceIdeal.S512x10 ![0, 1] Cert.ReferenceIdeal.Gen.bcast_S1x10_S512x10_0_1 b i = b (Cert.ReferenceIdeal.Read.idx_main_v88 i) :=
    broadcastInDim_apply _ Cert.ReferenceIdeal.Gen.bcast_S1x10_S512x10_0_1 b i (Cert.ReferenceIdeal.Read.idx_main_v88 i) (fun a => match a with
      | ⟨0, _⟩ => by show 0 = if (1 : Nat) = 1 then 0 else (i 0).val; rw [if_pos rfl]
      | ⟨1, _⟩ => by show (i 1).val = if (10 : Nat) = 1 then 0 else (i 1).val; rw [if_neg (by decide)])
  show prod p w i + _ = _
  rw [e1, prod_apply]

/-- The printed index maps at the one point: every window at block (0, 0). -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

variable (V : (c : Dev nD) → (b : Ref sig .tc) → Buf (Elt Ideal) ((c : Thread nD τ).loc b))

/-- What the point writes back is the host expression of the arrays the region found, read through the whole-array block. -/
theorem flushed_eq (c : Dev nD) (t : Fin cfg4.N) :
    (dat4 (F := Ideal) V c).flushed 3 t = ((cfg4.win 3).blk t).view.read (Elt Ideal) (lin (V c main_v78) (V c main_arg7) (V c main_v79)) := by
  show (cfg4.win 3).cut (grid4.coords t) ((dat4 V c).after 3 t) = _
  rw [after4_3]
  unfold out4_3
  rw [View.canon_unit_zero hz2]
  simp only [View.ld_unit_zero (S := S512x16) hz2, View.ld_unit_zero (S := S16x10) hz2, View.ld_unit_zero (S := S1x10) hz2]
  obtain ⟨e0, e1, e2, e3, e4, e5, e6, e7⟩ := idx_facts t
  funext j
  show k4_pay1 (iblk4 V c 0 t) (iblk4 V c 1 t) (iblk4 V c 2 t) j
    = lin (V c main_v78) (V c main_arg7) (V c main_v79) (((cfg4.win 3).blk t).view.emb j)
  refine (pay_apply _ _ _ j).trans ?_
  refine Eq.trans ?_ (lin_apply _ _ _ _).symm
  have h2 : iblk4 V c 2 t (bix j) = V c main_v79 (Cert.ReferenceIdeal.Read.idx_main_v88 (((cfg4.win 3).blk t).view.emb j)) := by
    show V c main_v79 (((cfg4.win 2).blk t).view.emb (bix j)) = _
    refine congrArg _ (funext fun a => Fin.ext ?_)
    match a with
    | ⟨0, _⟩ => show win4_2.index t (0 : Fin 2) * 1 + 1 * 0 = 0; omega
    | ⟨1, _⟩ => show win4_2.index t (1 : Fin 2) * 10 + 1 * (j 1).val = win4_3.index t (1 : Fin 2) * 10 + 1 * (j 1).val; omega
  rw [h2]
  refine congrArg (· + _) (Finset.sum_congr rfl fun k _ => ?_)
  have h0 : iblk4 V c 0 t (lix j k) = V c main_v78 (Cert.ReferenceIdeal.Read.lidx_main_v86 (((cfg4.win 3).blk t).view.emb j) k) := by
    show V c main_v78 (((cfg4.win 0).blk t).view.emb (lix j k)) = _
    refine congrArg _ (funext fun a => Fin.ext ?_)
    match a with
    | ⟨0, _⟩ => show win4_0.index t (0 : Fin 2) * 512 + 1 * (j 0).val = win4_3.index t (0 : Fin 2) * 512 + 1 * (j 0).val; omega
    | ⟨1, _⟩ => show win4_0.index t (1 : Fin 2) * 16 + 1 * k.val = k.val; omega
  have h1 : iblk4 V c 1 t (rix j k) = V c main_arg7 (Cert.ReferenceIdeal.Read.ridx_main_v86 (((cfg4.win 3).blk t).view.emb j) k) := by
    show V c main_arg7 (((cfg4.win 1).blk t).view.emb (rix j k)) = _
    refine congrArg _ (funext fun a => Fin.ext ?_)
    match a with
    | ⟨0, _⟩ => show win4_1.index t (0 : Fin 2) * 16 + 1 * k.val = k.val; omega
    | ⟨1, _⟩ => show win4_1.index t (1 : Fin 2) * 10 + 1 * (j 1).val = win4_3.index t (1 : Fin 2) * 10 + 1 * (j 1).val; omega
  rw [h0, h1]

/-- An index of the result array is in the point's block iff each coordinate is in the block's range. -/
theorem mem_blk (t : Fin cfg4.N) (i : S512x10.Idx) :
    i ∈ ((cfg4.win 3).blk t).view.set ↔ ∀ a : Fin 2, win4_3.index t a * S512x10.size a ≤ (i a).val ∧ (i a).val < win4_3.index t a * S512x10.size a + S512x10.size a := by
  show i ∈ ((View.whole main_v80).slice (win4_3.rect t)).set ↔ _
  rw [View.set_slice_whole, Rect.mem_set_unit]
  exact Iff.rfl

/-- The one block is the whole array. -/
theorem cover (i : S512x10.Idx) : ∃ t : Fin cfg4.N, (cfg4.win 3).flush t = true ∧ i ∈ ((cfg4.win 3).blk t).view.set := by
  have hi0 : (i 0).val < 512 := (i 0).isLt
  have hi1 : (i 1).val < 10 := (i 1).isLt
  obtain ⟨e0, e1, e2, e3, e4, e5, e6, e7⟩ := idx_facts t4_0
  refine ⟨t4_0, flush4_3 _, ?_⟩
  rw [mem_blk]
  intro a
  match a with
  | ⟨0, _⟩ =>
    show win4_3.index t4_0 (0 : Fin 2) * 512 ≤ (i 0).val ∧ (i 0).val < win4_3.index t4_0 (0 : Fin 2) * 512 + 512
    rw [e6]; omega
  | ⟨1, _⟩ =>
    show win4_3.index t4_0 (1 : Fin 2) * 10 ≤ (i 1).val ∧ (i 1).val < win4_3.index t4_0 (1 : Fin 2) * 10 + 10
    rw [e7]; omega

/-- After region 4 its result array holds the host expression of the three arrays as the region found them. -/
theorem value (c : Dev nD) : (dat4 (F := Ideal) V c).arrAt 3 cfg4.N = lin (V c main_v78) (V c main_arg7) (V c main_v79) :=
  (dat4 (F := Ideal) V c).arrAt_eq_of_cover 3 (lin (V c main_v78) (V c main_arg7) (V c main_v79)) (fun t _ => flushed_eq V c t) cover

end Cert.KernelIdeal.Hand.R4

end
-- ==== Proof.ChainD.lean ====
/-
  The mean pool and the final linear layer.

  Between the fourth and the fifth region the host counts the nodes of each graph (a scatter-add of ones by
  the batch vector), sums the second layer's rows per graph, divides by max(count, 1), and reshapes the last
  bias to one row: the reference's pooling stages on the same values.  The fifth region (Region 4's function)
  leaves pooled · Wfc + bias, the reference's result.
-/
import proofs.«134756_j14551349199033_1_alg».proof.Proof.ChainC
import proofs.«134756_j14551349199033_1_alg».proof.Proof.Reg4
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen Cert.ReferenceIdeal.Read

variable (m : (ℓ : Loc nD τ sig) → Buf (Elt Ideal) ℓ) (ρ : Dev nD → PrngReg)

/-! ## After the fourth stretch of host operations -/

/-- The pooled features: per-graph sums over per-graph counts (at least one). -/
theorem W8_v78 (c : Dev nD) : W8 m ρ c (Proc.devRef .tc main_v78) = val_main_v85 (F := Ideal) (x0 m c) (x1 m c) (x2 m c) (x3 m c) (x4 m c) (x5 m c) (x6 m c) := by
  show StableHlo.after hostOps4 (W7 m ρ c) (Proc.devRef .tc main_v78) = _
  after_results_simp
  rw [W7_arg2, W7_v66]
  rfl
/-- The last bias as one row. -/
theorem W8_v79 (c : Dev nD) : W8 m ρ c (Proc.devRef .tc main_v79) = val_main_v87 (F := Ideal) (x8 m c) := by
  show StableHlo.after hostOps4 (W7 m ρ c) (Proc.devRef .tc main_v79) = _
  after_results_simp
  rw [W7_arg8]
  funext i
  show shapeCast S1x10 (x8 m c) shapeCasts_S10_S1x10 i = _
  rw [val_main_v87_apply]
  refine shapeCast_apply (x8 m c) shapeCasts_S10_S1x10 i (idx_main_v87 i) ?_
  show ((⟨1, ![10]⟩ : Shape).rowMajor (idx_main_v87 i)).val = ((⟨2, ![1, 10]⟩ : Shape).rowMajor i).val
  rw [Shape.rowMajor_val_one, Shape.rowMajor_val_two]
  have h0 : (i 0).val < 1 := (i 0).isLt
  show (i 1).val = (i 0).val * 10 + (i 1).val
  omega
theorem W8_arg7 (c : Dev nD) : W8 m ρ c (Proc.devRef .tc main_arg7) = x7 m c := by
  show StableHlo.after hostOps4 (W7 m ρ c) (Proc.devRef .tc main_arg7) = _
  after_results_simp
  exact W7_arg7 m ρ c

/-! ## After the fifth region: the result -/

/-- The kernel's result buffer holds the reference's last stage of the launched arguments. -/
theorem W9_v80 (c : Dev nD) : W9 m ρ c (Proc.devRef .tc main_v80)
    = val_main_v89 (F := Ideal) (x0 m c) (x1 m c) (x2 m c) (x3 m c) (x4 m c) (x5 m c) (x6 m c) (x7 m c) (x8 m c) := by
  refine (W9_arr m ρ c 3).trans ((R4.value (V8 m ρ) c).trans ?_)
  show R4.lin (W8 m ρ c (Proc.devRef .tc main_v78)) (W8 m ρ c (Proc.devRef .tc main_arg7)) (W8 m ρ c (Proc.devRef .tc main_v79)) = _
  rw [W8_v78, W8_arg7, W8_v79]
  rfl

end Cert.KernelIdeal.Hand

end
-- ==== Proof.lean ====
/-
  The certificate of the two-layer graph convolution with mean pooling and a linear head: the Pallas program
  against its jnp reference, on the extended reals.

  The program runs five pipelined regions among stretches of host operations.  The host operations (index
  vectors from the edge list, degrees by scatter-add, the power −1/2, the gathers and scatter-adds over the
  6.4 million edges, the per-graph pooling) are the reference's own, in the same order; only five stages
  differ in form, and each is the same function on the extended reals:
    · the two dense projections and the final layer: a bf16-rounded matrix product into a zero accumulator,
      block by block over the rows, against one host dot_general — rounding is the identity, and each
      output entry is the same sum Σ_k a(r, k) · w(k, c) over the same finite index set;
    · the two combines: (agg + self) + bias row, with relu in the first, on row blocks against the same
      expression on whole arrays with the bias broadcast.
  So the result buffer holds the reference's last stage as a function of the launched arguments (ChainA–D,
  over the per-region functions Reg0–Reg4), and the reference's run ends at that same stage of its own
  arguments, which agree.  No law of arithmetic beyond reading both sides at an index is used, so the
  finiteness precondition is never opened.  The ideal pass rewrote nothing: `preserves` is `True`.
-/
import proofs.«134756_j14551349199033_1_alg».proof.Defs
import proofs.«134756_j14551349199033_1_alg».proof.Proof.Gen.Kernel
import proofs.«134756_j14551349199033_1_alg».proof.Proof.Gen.Kernel.Frame
import proofs.«134756_j14551349199033_1_alg».proof.Proof.Gen.KernelIdeal
import proofs.«134756_j14551349199033_1_alg».proof.Proof.Gen.KernelIdeal.Frame
import proofs.«134756_j14551349199033_1_alg».proof.Proof.Gen.ReferenceIdeal
import proofs.«134756_j14551349199033_1_alg».proof.Proof.Gen.Pre_finite_inputs
import proofs.«134756_j14551349199033_1_alg».proof.Proof.Gen.ReferenceIdeal.Run
import proofs.«134756_j14551349199033_1_alg».proof.Proof.Gen.ReferenceIdeal.Read
import proofs.«134756_j14551349199033_1_alg».proof.Proof.NamedRun
import proofs.«134756_j14551349199033_1_alg».proof.Proof.ChainD
import Idealize.ShloMosaic.Adequacy
import Idealize.ShloMosaic.Init

noncomputable section

namespace Cert.Proof

open Idealize.ShloMosaic Idealize.SL.Sem

/-- The word-level program terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end, with the arguments unchanged and the same result: the kernel's result buffer holds the
    reference's last stage of the kernel's arguments, the reference's holds it of its own, and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v80),
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v89_eq, h0, h1, h2, h3, h4, h5, h6, h7, h8]
  exact (Cert.KernelIdeal.Hand.W9_v80 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
